-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S8x128x96 : Shape := ⟨3, ![8, 128, 96]⟩
abbrev S96 : Shape := ⟨1, ![96]⟩
abbrev S8x200000 : Shape := ⟨2, ![8, 200000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S8x128x96 : S_.BroadcastsInDim S8x128x96 (![] : Fin 0 → Fin S8x128x96.rank)
  reducesTo_S8x128x96_S_d0_1_2 : S8x128x96.ReducesTo [0, 1, 2] S_
  bcast_S_S96 : S_.BroadcastsInDim S96 (![] : Fin 0 → Fin S96.rank)
  reducesTo_S96_S_d0 : S96.ReducesTo [0] S_

variable [Facts]

def fn_part1 {F : FTy → Type} [FloatOps F] (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  main_v18

def fn {F : FTy → Type} [FloatOps F] (main_arg0 : FVec F S200000x128 .f32) (main_arg1 : FVec F S8x128x96 .f32) (main_arg2 : FVec F S96 .f32) (main_arg3 : FVec F S96 .f32) (main_arg4 : IVec S8x200000 32) (main_arg5 : IVec S8x200000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S8x128x96 .f32 := Host.absf main_arg1
  let main_cst_0 : FVec F S_ .f32 := constant S_ .f32 0x7F800000#32
  let main_v5 : FVec F S8x128x96 .f32 := broadcastInDim S8x128x96 ![] bcast_S_S8x128x96 main_cst_0
  let main_v6 : IVec S8x128x96 1 := cmpf .olt main_v4 main_v5
  let main_c_1 : IVec S_ 1 := constantI S_ 1 1#1
  let main_v7 : IVec S_ 1 := (fun x v => Host.reduce IntOp.andi x v reducesTo_S8x128x96_S_d0_1_2 h_S_) main_v6 main_c_1
  let main_v8 : IVec S_ 1 := andi main_v3 main_v7
  let main_v9 : FVec F S96 .f32 := Host.absf main_arg2
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_v13 main_v16
-- ==== Kernel.lean ====
abbrev S200000x128 : Shape := ⟨2, ![200000, 128]⟩
abbrev S8x128x96 : Shape := ⟨3, ![8, 128, 96]⟩
abbrev S96 : Shape := ⟨1, ![96]⟩
abbrev S8x200000 : Shape := ⟨2, ![8, 200000]⟩
abbrev S_ : Shape := ⟨0, ![]⟩
abbrev S8x200000x1 : Shape := ⟨3, ![8, 200000, 1]⟩
abbrev S8x200000x128 : Shape := ⟨3, ![8, 200000, 128]⟩
abbrev S8x200000x96 : Shape := ⟨3, ![8, 200000, 96]⟩
abbrev S1x8000x128 : Shape := ⟨3, ![1, 8000, 128]⟩
abbrev S1x128x96 : Shape := ⟨3, ![1, 128, 96]⟩
abbrev S1x8000x96 : Shape := ⟨3, ![1, 8000, 96]⟩
abbrev S8000x128 : Shape := ⟨2, ![8000, 128]⟩
abbrev S128x96 : Shape := ⟨2, ![128, 96]⟩
abbrev S8000x96 : Shape := ⟨2, ![8000, 96]⟩
abbrev S400000x96 : Shape := ⟨2, ![400000, 96]⟩
abbrev S1600000 : Shape := ⟨1, ![1600000]⟩
abbrev S1600000x96 : Shape := ⟨2, ![1600000, 96]⟩
abbrev S1600000x1 : Shape := ⟨2, ![1600000, 1]⟩
abbrev S1x96 : Shape := ⟨2, ![1, 96]⟩

abbrev nBuf : Space → Nat
  | .hbm => 46
  | .vmem => 18
  | .smem => 0
  | _ => 0

abbrev bufTy : (tb : Table) → Fin (tcTables nBuf tb) → BufTy
  | .hbm, ⟨0, _⟩ => ⟨S200000x128, .f32⟩
  | .hbm, ⟨1, _⟩ => ⟨S8x128x96, .f32⟩
  | .hbm, ⟨2, _⟩ => ⟨S96, .f32⟩
  | .hbm, ⟨3, _⟩ => ⟨S96, .f32⟩
  | .hbm, ⟨4, _⟩ => ⟨S8x200000, .i32⟩
  | .hbm, ⟨5, _⟩ => ⟨S8x200000, .i32⟩
  | .hbm, ⟨6, _⟩ => ⟨S_, .i32⟩
  | .hbm, ⟨7, _⟩ => ⟨S8x200000, .i32⟩
  | .hbm, ⟨8, _⟩ => ⟨S8x200000, .i1⟩
  | .hbm, ⟨9, _⟩ => ⟨S_, .i32⟩
  | .hbm, ⟨10, _⟩ => ⟨S8x200000, .i32⟩
  | .hbm, ⟨11, _⟩ => ⟨S8x200000, .i32⟩
  | .hbm, ⟨12, _⟩ => ⟨S8x200000, .i32⟩
  | .hbm, ⟨13, _⟩ => ⟨S8x200000x1, .i32⟩
  | .hbm, ⟨14, _⟩ => ⟨S8x200000x128, .f32⟩
  | .hbm, ⟨15, _⟩ => ⟨S8x200000x96, .f32⟩
  | .hbm, ⟨16, _⟩ => ⟨S_, .f32⟩
  | .hbm, ⟨17, _⟩ => ⟨S400000x96, .f32⟩
  | .hbm, ⟨18, _⟩ => ⟨S1600000, .i32⟩
  | .hbm, ⟨19, _⟩ => ⟨S1600000x96, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S400000x96, .f32⟩
  | .hbm, ⟨29, _⟩ => ⟨S1x96, .f32⟩
  | .hbm, ⟨30, _⟩ => ⟨S1x96, .f32⟩
  | .hbm, ⟨31, _⟩ => ⟨S96, .f32⟩
  | .hbm, ⟨32, _⟩ => ⟨S_, .f32⟩
  | .hbm, ⟨33, _⟩ => ⟨S96, .f32⟩
  | .hbm, ⟨34, _⟩ => ⟨S96, .f32⟩
  | .hbm, ⟨35, _⟩ => ⟨S96, .f32⟩
  | .hbm, ⟨36, _⟩ => ⟨S_, .f32⟩
  | .hbm, ⟨37, _⟩ => ⟨S96, .f32⟩
  | .hbm, ⟨38, _⟩ => ⟨S96, .f32⟩
  | .hbm, ⟨39, _⟩ => ⟨S96, .f32⟩
  | .hbm, ⟨40, _⟩ => ⟨S96, .f32⟩
  | .hbm, ⟨41, _⟩ => ⟨S1x96, .f32⟩
  | .hbm, ⟨42, _⟩ => ⟨S1x96, .f32⟩
  | .hbm, ⟨43, _⟩ => ⟨S1x96, .f32⟩
  | .hbm, ⟨44, _⟩ => ⟨S1x96, .f32⟩
  | .hbm, ⟨45, _⟩ => ⟨S400000x96, .f32⟩
  | .local _ .vmem, ⟨0, _⟩ => ⟨S1x8000x128, .f32⟩
  | .local _ .vmem, ⟨1, _⟩ => ⟨S1x8000x128, .f32⟩
  | .local _ .vmem, ⟨2, _⟩ => ⟨S1x128x96, .f32⟩
  | .local _ .vmem, ⟨3, _⟩ => ⟨S1x128x96, .f32⟩
  | .local _ .vmem, ⟨4, _⟩ => ⟨S1x8000x96, .f32⟩
  | .local _ .vmem, ⟨5, _⟩ => ⟨S1x8000x96, .f32⟩
  | .local _ .vmem, ⟨6, _⟩ => ⟨S8000x96, .f32⟩
  | .local _ .vmem, ⟨7, _⟩ => ⟨S8000x96, .f32⟩
  | .local _ .vmem, ⟨8, _⟩ => ⟨S1x96, .f32⟩
  | .local _ .vmem, ⟨9, _⟩ => ⟨S1x96, .f32⟩
  | .local _ .vmem, ⟨10, _⟩ => ⟨S8000x96, .f32⟩
  | .local _ .vmem, ⟨11, _⟩ => ⟨S8000x96, .f32⟩
  | .local _ .vmem, ⟨12, _⟩ => ⟨S1x96, .f32⟩
  | .local _ .vmem, ⟨13, _⟩ => ⟨S1x96, .f32⟩
  | .local _ .vmem, ⟨14, _⟩ => ⟨S1x96, .f32⟩
  | .local _ .vmem, ⟨15, _⟩ => ⟨S1x96, .f32⟩
  | .local _ .vmem, ⟨16, _⟩ => ⟨S8000x96, .f32⟩
  | .local _ .vmem, ⟨17, _⟩ => ⟨S8000x96, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨2, ![8, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S8x200000 : S_.BroadcastsInDim S8x200000 (![] : Fin 0 → Fin S8x200000.rank)
  bcast_S8x200000_S8x200000x1_0_1 : S8x200000.BroadcastsInDim S8x200000x1 (![0, 1] : Fin 2 → Fin S8x200000x1.rank)
  inb_S1x8000x128_S1x8000x128_0_0_0 : ∀ a, (![0, 0, 0] : Fin 3 → Nat) a + S1x8000x128.size a ≤ S1x8000x128.size a
  h_S1x8000x128 : 0 < S1x8000x128.numel
  shapeCasts_S1x8000x128_S8000x128 : S1x8000x128.ShapeCasts S8000x128
  bitsLt_bf16_f32 : FTy.bits .bf16 < FTy.bits .f32
  inb_S1x128x96_S1x128x96_0_0_0 : ∀ a, (![0, 0, 0] : Fin 3 → Nat) a + S1x128x96.size a ≤ S1x128x96.size a
  h_S1x128x96 : 0 < S1x128x96.numel
  shapeCasts_S1x128x96_S128x96 : S1x128x96.ShapeCasts S128x96
  inb_S1x8000x96_S1x8000x96_0_0_0 : ∀ a, (![0, 0, 0] : Fin 3 → Nat) a + S1x8000x96.size a ≤ S1x8000x96.size a
  h_S1x8000x96 : 0 < S1x8000x96.numel
  shapeCasts_S1x8000x96_S8000x96 : S1x8000x96.ShapeCasts S8000x96
  shapeCasts_S8000x96_S1x8000x96 : S8000x96.ShapeCasts S1x8000x96
  bcast_S_S400000x96 : S_.BroadcastsInDim S400000x96 (![] : Fin 0 → Fin S400000x96.rank)
  shapeCasts_S8x200000_S1600000 : S8x200000.ShapeCasts S1600000
  shapeCasts_S8x200000x96_S1600000x96 : S8x200000x96.ShapeCasts S1600000x96
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S1x96_S1x96_0_0 : ∀ a, (![0, 0] : Fin 2 → Nat) a + S1x96.size a ≤ S1x96.size a
  h_S1x96 : 0 < S1x96.numel
  inb_S8000x96_S8000x96_0_0 : ∀ a, (![0, 0] : Fin 2 → Nat) a + S8000x96.size a ≤ S8000x96.size a
  h_S8000x96 : 0 < S8000x96.numel
  shapeCasts_S8000x96_S8000x96 : S8000x96.ShapeCasts S8000x96
  shapeCasts_S1x96_S1x96 : S1x96.ShapeCasts S1x96
  reduces_S8000x96_S96 : S8000x96.Reduces [0] S96
  shapeCasts_S96_S1x96 : S96.ShapeCasts S1x96
  shapeCasts_S1x96_S96 : S1x96.ShapeCasts S96
  bcast_S_S96 : S_.BroadcastsInDim S96 (![] : Fin 0 → Fin S96.rank)
  broadcasts_S1x96_S8000x96 : S1x96.Broadcasts S8000x96
  gather_S200000x128_S8x200000x1_S8x200000x128_2_0_n_n_0_2_1128_wf : GatherDims.WF S200000x128 S8x200000x1 S8x200000x128 [2] [0] [] [0] [] 2 ![1, 128]
  dot_S8000x128_S128x96_S8000x96_1_0_0_1_n_n_wf : DotDims.WF S8000x128 S128x96 S8000x96 [1] [0] [0] [1] [] []
  scatter_S400000x96_S1600000x1_S1600000x96_1_0_0_1_wf : ScatterDims.WF S400000x96 S1600000x1 S1600000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8000x128.size a ≤ S8x200000x128.size a
  hwx0_0 : ∀ i : grid0.Coords, EltTy.bits .f32 = 32 ∨ (Rect.block (s := S8x200000x128) S1x8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x96.size a ≤ S8x128x96.size a
  hwx0_1 : ∀ i : grid0.Coords, EltTy.bits .f32 = 32 ∨ (Rect.block (s := S8x128x96) S1x128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8000x96.size a ≤ S8x200000x96.size a
  hwx0_2 : ∀ i : grid0.Coords, EltTy.bits .f32 = 32 ∨ (Rect.block (s := S8x200000x96) S1x8000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x96.size a ≤ S400000x96.size a
  hwx1_0 : ∀ i : grid1.Coords, EltTy.bits .f32 = 32 ∨ (Rect.block (s := S400000x96) S8000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x96.size a ≤ S400000x96.size a
  hwx2_0 : ∀ i : grid2.Coords, EltTy.bits .f32 = 32 ∨ (Rect.block (s := S400000x96) S8000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x96.size a ≤ S400000x96.size a
  hwx2_5 : ∀ i : grid2.Coords, EltTy.bits .f32 = 32 ∨ (Rect.block (s := S400000x96) S8000x96.size (cc2_transform_5 i) (hinb2_5 i)).WholeWords (EltTy.packing .f32)

variable [Facts₀]

def gather_S200000x128_S8x200000x1_S8x200000x128_2_0_n_n_0_2_1128 : GatherDims S200000x128 S8x200000x1 S8x200000x128 where
  offsetDims := [2]
  collapsedSliceDims := [0]
  operandBatchingDims := []
  startIndicesBatchingDims := []
  startIndexMap := [0]
  indexVectorDim := 2
  sliceSizes := ![1, 128]
  wf := gather_S200000x128_S8x200000x1_S8x200000x128_2_0_n_n_0_2_1128_wf
def dot_S8000x128_S128x96_S8000x96_1_0_0_1_n_n : DotDims S8000x128 S128x96 S8000x96 where
  lhsContracting := [1]
  rhsContracting := [0]
  lhsNonContracting := [0]
  rhsNonContracting := [1]
  lhsBatch := []
  rhsBatch := []
  wf := dot_S8000x128_S128x96_S8000x96_1_0_0_1_n_n_wf
def scatter_S400000x96_S1600000x1_S1600000x96_1_0_0_1 : ScatterDims S400000x96 S1600000x1 S1600000x96 where
  updateWindowDims := [1]
  insertedWindowDims := [0]
  scatterDimsToOperandDims := [0]
  indexVectorDim := 1
  wf := scatter_S400000x96_S1600000x1_S1600000x96_1_0_0_1_wf

abbrev win0_0 : Pipeline.Window sig grid0 :=
  Pipeline.Window.ofSpec (Memref.whole main_v6) S1x8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x8000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S8000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18_0) S1x96.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18_1) S1x96.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S8000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S8000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S200000x128 : Shape := ⟨2, ![200000, 128]⟩
abbrev S8x128x96 : Shape := ⟨3, ![8, 128, 96]⟩
abbrev S96 : Shape := ⟨1, ![96]⟩
abbrev S8x200000 : Shape := ⟨2, ![8, 200000]⟩
abbrev S_ : Shape := ⟨0, ![]⟩
abbrev S8x200000x1 : Shape := ⟨3, ![8, 200000, 1]⟩
abbrev S8x200000x128 : Shape := ⟨3, ![8, 200000, 128]⟩
abbrev S8x200000x96 : Shape := ⟨3, ![8, 200000, 96]⟩
abbrev S400000x96 : Shape := ⟨2, ![400000, 96]⟩
abbrev S1x96 : Shape := ⟨2, ![1, 96]⟩

abbrev nBuf : Space → Nat
  | .hbm => 74
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S8x128x96, .f32⟩
  | .hbm, ⟨2, _⟩ => ⟨S96, .f32⟩
  | .hbm, ⟨3, _⟩ => ⟨S96, .f32⟩
  | .hbm, ⟨4, _⟩ => ⟨S8x200000, .i32⟩
  | .hbm, ⟨5, _⟩ => ⟨S8x200000, .i32⟩
  | .hbm, ⟨6, _⟩ => ⟨S_, .i32⟩
  | .hbm, ⟨7, _⟩ => ⟨S8x200000, .i32⟩
  | .hbm, ⟨8, _⟩ => ⟨S8x200000, .i1⟩
  | .hbm, ⟨9, _⟩ => ⟨S_, .i32⟩
  | .hbm, ⟨10, _⟩ => ⟨S8x200000, .i32⟩
  | .hbm, ⟨11, _⟩ => ⟨S8x200000, .i32⟩
  | .hbm, ⟨12, _⟩ => ⟨S8x200000, .i32⟩
  | .hbm, ⟨13, _⟩ => ⟨S8x200000x1, .i32⟩
  | .hbm, ⟨14, _⟩ => ⟨S8x200000x128, .f32⟩
  | .hbm, ⟨15, _⟩ => ⟨S8x200000x96, .f32⟩
  | .hbm, ⟨16, _⟩ => ⟨S_, .f32⟩
  | .hbm, ⟨17, _⟩ => ⟨S400000x96, .f32⟩
  | .hbm, ⟨18, _⟩ => ⟨S_, .i32⟩
  | .hbm, ⟨19, _⟩ => ⟨S8x200000, .i32⟩
  | .hbm, ⟨20, _⟩ => ⟨S8x200000, .i1⟩
  | .hbm, ⟨21, _⟩ => ⟨S_, .i32⟩
  | .hbm, ⟨22, _⟩ => ⟨S8x200000, .i32⟩
  | .hbm, ⟨23, _⟩ => ⟨S8x200000, .i32⟩
  | .hbm, ⟨24, _⟩ => ⟨S8x200000, .i32⟩
  | .hbm, ⟨25, _⟩ => ⟨S8x200000x1, .i32⟩
  | .hbm, ⟨26, _⟩ => ⟨S400000x96, .f32⟩
  | .hbm, ⟨27, _⟩ => ⟨S_, .f32⟩
  | .hbm, ⟨28, _⟩ => ⟨S96, .f32⟩
  | .hbm, ⟨29, _⟩ => ⟨S_, .f32⟩
  | .hbm, ⟨30, _⟩ => ⟨S96, .f32⟩
  | .hbm, ⟨31, _⟩ => ⟨S96, .f32⟩
  | .hbm, ⟨32, _⟩ => ⟨S_, .i32⟩
  | .hbm, ⟨33, _⟩ => ⟨S_, .f32⟩
  | .hbm, ⟨34, _⟩ => ⟨S96, .f32⟩
  | .hbm, ⟨35, _⟩ => ⟨S1x96, .f32⟩
  | .hbm, ⟨36, _⟩ => ⟨S_, .f32⟩
  | .hbm, ⟨37, _⟩ => ⟨S1x96, .f32⟩
  | .hbm, ⟨38, _⟩ => ⟨S1x96, .f32⟩
  | .hbm, ⟨39, _⟩ => ⟨S400000x96, .f32⟩
  | .hbm, ⟨40, _⟩ => ⟨S400000x96, .f32⟩
  | .hbm, ⟨41, _⟩ => ⟨S400000x96, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S96, .f32⟩
  | .hbm, ⟨47, _⟩ => ⟨S96, .f32⟩
  | .hbm, ⟨48, _⟩ => ⟨S96, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S96, .f32⟩
  | .hbm, ⟨54, _⟩ => ⟨S96, .f32⟩
  | .hbm, ⟨55, _⟩ => ⟨S1x96, .f32⟩
  | .hbm, ⟨56, _⟩ => ⟨S400000x96, .f32⟩
  | .hbm, ⟨57, _⟩ => ⟨S400000x96, .f32⟩
  | .hbm, ⟨58, _⟩ => ⟨S_, .f32⟩
  | .hbm, ⟨59, _⟩ => ⟨S96, .f32⟩
  | .hbm, ⟨60, _⟩ => ⟨S96, .f32⟩
  | .hbm, ⟨61, _⟩ => ⟨S96, .f32⟩
  | .hbm, ⟨62, _⟩ => ⟨S1x96, .f32⟩
  | .hbm, ⟨63, _⟩ => ⟨S400000x96, .f32⟩
  | .hbm, ⟨64, _⟩ => ⟨S400000x96, .f32⟩
  | .hbm, ⟨65, _⟩ => ⟨S1x96, .f32⟩
  | .hbm, ⟨66, _⟩ => ⟨S400000x96, .f32⟩
  | .hbm, ⟨67, _⟩ => ⟨S400000x96, .f32⟩
  | .hbm, ⟨68, _⟩ => ⟨S1x96, .f32⟩
  | .hbm, ⟨69, _⟩ => ⟨S400000x96, .f32⟩
  | .hbm, ⟨70, _⟩ => ⟨S400000x96, .f32⟩
  | .hbm, ⟨71, _⟩ => ⟨S_, .f32⟩
  | .hbm, ⟨72, _⟩ => ⟨S400000x96, .f32⟩
  | .hbm, ⟨73, _⟩ => ⟨S400000x96, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_cst_3 : Ref sig .tc := ⟨.hbm, 49, rfl⟩
abbrev main_call0_v12 : Ref sig .tc := ⟨.hbm, 50, rfl⟩
abbrev main_call0_cst_4 : Ref sig .tc := ⟨.hbm, 51, rfl⟩
abbrev main_call0_call0_v0 : Ref sig .tc := ⟨.hbm, 52, rfl⟩
abbrev main_call0_call0_v1 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_6 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_7 : Ref sig .tc := ⟨.hbm, 71, rfl⟩
abbrev main_v35 : Ref sig .tc := ⟨.hbm, 72, rfl⟩
abbrev main_v36 : Ref sig .tc := ⟨.hbm, 73, rfl⟩

abbrev nD : Nat := 1
abbrev τ : Topo := Topo.v7x

variable {F : FTy → Type} [FloatOps F]

class Facts₀ : Prop where
  bcast_S_S8x200000 : S_.BroadcastsInDim S8x200000 (![] : Fin 0 → Fin S8x200000.rank)
  bcast_S8x200000_S8x200000x1_0_1 : S8x200000.BroadcastsInDim S8x200000x1 (![0, 1] : Fin 2 → Fin S8x200000x1.rank)
  bcast_S_S400000x96 : S_.BroadcastsInDim S400000x96 (![] : Fin 0 → Fin S400000x96.rank)
  reducesTo_S400000x96_S96_d0 : S400000x96.ReducesTo [0] S96
  h_S_ : 0 < S_.numel
  bcast_S_S96 : S_.BroadcastsInDim S96 (![] : Fin 0 → Fin S96.rank)
  bcast_S96_S1x96_1 : S96.BroadcastsInDim S1x96 (![1] : Fin 1 → Fin S1x96.rank)
  bcast_S_S1x96 : S_.BroadcastsInDim S1x96 (![] : Fin 0 → Fin S1x96.rank)
  bcast_S1x96_S400000x96_0_1 : S1x96.BroadcastsInDim S400000x96 (![0, 1] : Fin 2 → Fin S400000x96.rank)
  gather_S200000x128_S8x200000x1_S8x200000x128_2_0_n_n_0_2_1128_wf : GatherDims.WF S200000x128 S8x200000x1 S8x200000x128 [2] [0] [] [0] [] 2 ![1, 128]
  dot_S8x200000x128_S8x128x96_S8x200000x96_2_1_1_2_0_0_wf : DotDims.WF S8x200000x128 S8x128x96 S8x200000x96 [2] [1] [1] [2] [0] [0]
  scatter_S400000x96_S8x200000x1_S8x200000x96_2_0_0_2_wf : ScatterDims.WF S400000x96 S8x200000x1 S8x200000x96 [2] [0] [0] 2

variable [Facts₀]

def gather_S200000x128_S8x200000x1_S8x200000x128_2_0_n_n_0_2_1128 : GatherDims S200000x128 S8x200000x1 S8x200000x128 where
  offsetDims := [2]
  collapsedSliceDims := [0]
  operandBatchingDims := []
  startIndicesBatchingDims := []
  startIndexMap := [0]
  indexVectorDim := 2
  sliceSizes := ![1, 128]
  wf := gather_S200000x128_S8x200000x1_S8x200000x128_2_0_n_n_0_2_1128_wf
def dot_S8x200000x128_S8x128x96_S8x200000x96_2_1_1_2_0_0 : DotDims S8x200000x128 S8x128x96 S8x200000x96 where
  lhsContracting := [2]
  rhsContracting := [1]
  lhsNonContracting := [1]
  rhsNonContracting := [2]
  lhsBatch := [0]
  rhsBatch := [0]
  wf := dot_S8x200000x128_S8x128x96_S8x200000x96_2_1_1_2_0_0_wf
def scatter_S400000x96_S8x200000x1_S8x200000x96_2_0_0_2 : ScatterDims S400000x96 S8x200000x1 S8x200000x96 where
  updateWindowDims := [2]
  insertedWindowDims := [0]
  scatterDimsToOperandDims := [0]
  indexVectorDim := 2
  wf := scatter_S400000x96_S8x200000x1_S8x200000x96_2_0_0_2_wf

class Facts : Prop extends Facts₀ where

variable [Facts]
-- ==== Proof.KRun.lean ====
/-
  The idealized kernel program's run with its RESULT named.

  @main is six segments: three stretches of host operations and three kernel regions.  The buffer contents
  at each boundary are a fold from the launch memory (`Gen.W0 … Gen.W6`): a stretch applies its operations,
  a region replaces its arrays by what its write-backs leave.  Every weakly fair execution terminates,
  nothing faulting, and in the final state every unscoped buffer holds the last boundary's contents `W6`;
  so the result buffer `%31` holds `W6` at that buffer — region 2's output array after its write-backs —
  and the six argument arrays hold what they held at launch.
-/
import proofs.«110483_j76673756168768_1_alg».proof.Defs
import proofs.«110483_j76673756168768_1_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and the six arguments as launched. -/
theorem run_W6 : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

/-- The result buffer after the run is region 2's output array after its write-backs. -/
theorem W6_result (c : Dev nD) :
    W6 m ρ c (Proc.devRef .tc main_v31) = (dat2 (V5 m ρ) c).arrAt 5 cfg2.N :=
  W6_arr m ρ c 5

end Cert.KernelIdeal.KVal

end
-- ==== Proof.RefRun.lean ====
import proofs.«110483_j76673756168768_1_alg».proof.Defs
import proofs.«110483_j76673756168768_1_alg».proof.Proof.Gen.ReferenceIdeal
import Idealize.ShloMosaic.Lib.StableHlo.Run
import Idealize.ShloMosaic.Lib.Pipeline.Regions

/-!
The reference program's `@main` as one straight line of host operations — the statistics helper it calls and
the selection helper that one calls written out at the call site over the call's own buffers — and what the
line leaves in the result buffer, as a composition of five named stages of the six argument arrays:
the rows gathered per group, their per-group products with the weight, the destination rows, the
accumulation of the products at the destination rows, and the per-column normalisation with scale, shift
and clamp at zero.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of `@main` in program order: twenty-seven up to the call, the nineteen of the variance helper
    over the call's buffers, the three of the selection helper it calls, and the nineteen after the call. -/
abbrev ops : List (HloOp τ sig (Elt F)) :=
  [ nullary main_c (constantI S_ 32 0#32),
    unary main_c main_v0 (broadcastInDim S8x200000 ![] bcast_S_S8x200000 : (⟨S_, .i32⟩ : BufTy).Contents (Elt F) → (⟨S8x200000, .i32⟩ : BufTy).Contents (Elt F)),
    binary main_arg4 main_v0 main_v1 (cmpi .slt : (⟨S8x200000, .i32⟩ : BufTy).Contents (Elt F) → (⟨S8x200000, .i32⟩ : BufTy).Contents (Elt F) → (⟨S8x200000, .i1⟩ : BufTy).Contents (Elt F)),
    nullary main_c_0 (constantI S_ 32 200000#32),
    unary main_c_0 main_v2 (broadcastInDim S8x200000 ![] bcast_S_S8x200000 : (⟨S_, .i32⟩ : BufTy).Contents (Elt F) → (⟨S8x200000, .i32⟩ : BufTy).Contents (Elt F)),
    binary main_arg4 main_v2 main_v3 (addi : (⟨S8x200000, .i32⟩ : BufTy).Contents (Elt F) → (⟨S8x200000, .i32⟩ : BufTy).Contents (Elt F) → (⟨S8x200000, .i32⟩ : BufTy).Contents (Elt F)),
    ternary main_v1 main_v3 main_arg4 main_v4 (select : (⟨S8x200000, .i1⟩ : BufTy).Contents (Elt F) → (⟨S8x200000, .i32⟩ : BufTy).Contents (Elt F) → (⟨S8x200000, .i32⟩ : BufTy).Contents (Elt F) → (⟨S8x200000, .i32⟩ : BufTy).Contents (Elt F)),
    unary main_v4 main_v5 (broadcastInDim S8x200000x1 ![0, 1] bcast_S8x200000_S8x200000x1_0_1 : (⟨S8x200000, .i32⟩ : BufTy).Contents (Elt F) → (⟨S8x200000x1, .i32⟩ : BufTy).Contents (Elt F)),
    binary main_arg0 main_v5 main_v6 ((fun x i => Host.gather gather_S200000x128_S8x200000x1_S8x200000x128_2_0_n_n_0_2_1128 x i) : (⟨S200000x128, .f32⟩ : BufTy).Contents (Elt F) → (⟨S8x200000x1, .i32⟩ : BufTy).Contents (Elt F) → (⟨S8x200000x128, .f32⟩ : BufTy).Contents (Elt F)),
    binary main_v6 main_arg1 main_v7 ((fun l r => Host.dotGeneral dot_S8x200000x128_S8x128x96_S8x200000x96_2_1_1_2_0_0 none l r) : (⟨S8x200000x128, .f32⟩ : BufTy).Contents (Elt F) → (⟨S8x128x96, .f32⟩ : BufTy).Contents (Elt F) → (⟨S8x200000x96, .f32⟩ : BufTy).Contents (Elt F)),
    nullary main_cst (constant S_ .f32 0x00000000#32),
    unary main_cst main_v8 (broadcastInDim S400000x96 ![] bcast_S_S400000x96 : (⟨S_, .f32⟩ : BufTy).Contents (Elt F) → (⟨S400000x96, .f32⟩ : BufTy).Contents (Elt F)),
    nullary main_c_1 (constantI S_ 32 0#32),
    unary main_c_1 main_v9 (broadcastInDim S8x200000 ![] bcast_S_S8x200000 : (⟨S_, .i32⟩ : BufTy).Contents (Elt F) → (⟨S8x200000, .i32⟩ : BufTy).Contents (Elt F)),
    binary main_arg5 main_v9 main_v10 (cmpi .slt : (⟨S8x200000, .i32⟩ : BufTy).Contents (Elt F) → (⟨S8x200000, .i32⟩ : BufTy).Contents (Elt F) → (⟨S8x200000, .i1⟩ : BufTy).Contents (Elt F)),
    nullary main_c_2 (constantI S_ 32 400000#32),
    unary main_c_2 main_v11 (broadcastInDim S8x200000 ![] bcast_S_S8x200000 : (⟨S_, .i32⟩ : BufTy).Contents (Elt F) → (⟨S8x200000, .i32⟩ : BufTy).Contents (Elt F)),
    binary main_arg5 main_v11 main_v12 (addi : (⟨S8x200000, .i32⟩ : BufTy).Contents (Elt F) → (⟨S8x200000, .i32⟩ : BufTy).Contents (Elt F) → (⟨S8x200000, .i32⟩ : BufTy).Contents (Elt F)),
    ternary main_v10 main_v12 main_arg5 main_v13 (select : (⟨S8x200000, .i1⟩ : BufTy).Contents (Elt F) → (⟨S8x200000, .i32⟩ : BufTy).Contents (Elt F) → (⟨S8x200000, .i32⟩ : BufTy).Contents (Elt F) → (⟨S8x200000, .i32⟩ : BufTy).Contents (Elt F)),
    unary main_v13 main_v14 (broadcastInDim S8x200000x1 ![0, 1] bcast_S8x200000_S8x200000x1_0_1 : (⟨S8x200000, .i32⟩ : BufTy).Contents (Elt F) → (⟨S8x200000x1, .i32⟩ : BufTy).Contents (Elt F)),
    ternary main_v8 main_v14 main_v7 main_v15 ((fun x i u => Host.scatterAdd scatter_S400000x96_S8x200000x1_S8x200000x96_2_0_0_2 x i u) : (⟨S400000x96, .f32⟩ : BufTy).Contents (Elt F) → (⟨S8x200000x1, .i32⟩ : BufTy).Contents (Elt F) → (⟨S8x200000x96, .f32⟩ : BufTy).Contents (Elt F) → (⟨S400000x96, .f32⟩ : BufTy).Contents (Elt F)),
    nullary main_cst_3 (constant S_ .f32 0x00000000#32),
    binary main_v15 main_cst_3 main_v16 ((fun x v => Host.reduceAdd x v reducesTo_S400000x96_S96_d0 h_S_) : (⟨S400000x96, .f32⟩ : BufTy).Contents (Elt F) → (⟨S_, .f32⟩ : BufTy).Contents (Elt F) → (⟨S96, .f32⟩ : BufTy).Contents (Elt F)),
    nullary main_cst_4 (constant S_ .f32 0x48C35000#32),
    unary main_cst_4 main_v17 (broadcastInDim S96 ![] bcast_S_S96 : (⟨S_, .f32⟩ : BufTy).Contents (Elt F) → (⟨S96, .f32⟩ : BufTy).Contents (Elt F)),
    binary main_v16 main_v17 main_v18 (Host.divf : (⟨S96, .f32⟩ : BufTy).Contents (Elt F) → (⟨S96, .f32⟩ : BufTy).Contents (Elt F) → (⟨S96, .f32⟩ : BufTy).Contents (Elt F)),
    nullary main_c_5 (constantI S_ 32 0#32),
    TRef.nullary main_call0.cst (constant S_ .f32 0x00000000#32),
    TRef.binary (.of main_v15) main_call0.cst main_call0.v0 (fun x v => Host.reduceAdd x v reducesTo_S400000x96_S96_d0 h_S_),
    TRef.unary main_call0.v0 main_call0.v1 (broadcastInDim S1x96 ![1] bcast_S96_S1x96_1),
    TRef.nullary main_call0.cst_0 (constant S_ .f32 0x48C35000#32),
    TRef.unary main_call0.cst_0 main_call0.v2 (broadcastInDim S1x96 ![] bcast_S_S1x96),
    TRef.binary main_call0.v1 main_call0.v2 main_call0.v3 Host.divf,
    TRef.unary main_call0.v3 main_call0.v4 (broadcastInDim S400000x96 ![0, 1] bcast_S1x96_S400000x96_0_1),
    TRef.binary (.of main_v15) main_call0.v4 main_call0.v5 subf,
    TRef.binary main_call0.v5 main_call0.v5 main_call0.v6 mulf,
    TRef.unary (.of main_c_5) main_call0.v7 (sitofp .f32),
    TRef.nullary main_call0.cst_1 (constant S_ .f32 0x48C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S400000x96_S96_d0 h_S_),
    TRef.unary main_call0.v8 main_call0.v10 (broadcastInDim S96 ![] bcast_S_S96),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S96 ![] bcast_S_S96),
    TRef.ternary main_call0.v12 main_call0.v11 main_call0.call0.v1 main_call0.call0.v2 (fun p a b => select (broadcastInDim S96 ![] bcast_S_S96 p) a b),
    unary main_v18 main_v20 (broadcastInDim S1x96 ![1] bcast_S96_S1x96_1 : (⟨S96, .f32⟩ : BufTy).Contents (Elt F) → (⟨S1x96, .f32⟩ : BufTy).Contents (Elt F)),
    unary main_v20 main_v21 (broadcastInDim S400000x96 ![0, 1] bcast_S1x96_S400000x96_0_1 : (⟨S1x96, .f32⟩ : BufTy).Contents (Elt F) → (⟨S400000x96, .f32⟩ : BufTy).Contents (Elt F)),
    binary main_v15 main_v21 main_v22 (subf : (⟨S400000x96, .f32⟩ : BufTy).Contents (Elt F) → (⟨S400000x96, .f32⟩ : BufTy).Contents (Elt F) → (⟨S400000x96, .f32⟩ : BufTy).Contents (Elt F)),
    nullary main_cst_6 (constant S_ .f32 0x3727C5AC#32),
    unary main_cst_6 main_v23 (broadcastInDim S96 ![] bcast_S_S96 : (⟨S_, .f32⟩ : BufTy).Contents (Elt F) → (⟨S96, .f32⟩ : BufTy).Contents (Elt F)),
    binary main_v19 main_v23 main_v24 (addf : (⟨S96, .f32⟩ : BufTy).Contents (Elt F) → (⟨S96, .f32⟩ : BufTy).Contents (Elt F) → (⟨S96, .f32⟩ : BufTy).Contents (Elt F)),
    unary main_v24 main_v25 (Host.rsqrt : (⟨S96, .f32⟩ : BufTy).Contents (Elt F) → (⟨S96, .f32⟩ : BufTy).Contents (Elt F)),
    unary main_v25 main_v26 (broadcastInDim S1x96 ![1] bcast_S96_S1x96_1 : (⟨S96, .f32⟩ : BufTy).Contents (Elt F) → (⟨S1x96, .f32⟩ : BufTy).Contents (Elt F)),
    unary main_v26 main_v27 (broadcastInDim S400000x96 ![0, 1] bcast_S1x96_S400000x96_0_1 : (⟨S1x96, .f32⟩ : BufTy).Contents (Elt F) → (⟨S400000x96, .f32⟩ : BufTy).Contents (Elt F)),
    binary main_v22 main_v27 main_v28 (mulf : (⟨S400000x96, .f32⟩ : BufTy).Contents (Elt F) → (⟨S400000x96, .f32⟩ : BufTy).Contents (Elt F) → (⟨S400000x96, .f32⟩ : BufTy).Contents (Elt F)),
    unary main_arg2 main_v29 (broadcastInDim S1x96 ![1] bcast_S96_S1x96_1 : (⟨S96, .f32⟩ : BufTy).Contents (Elt F) → (⟨S1x96, .f32⟩ : BufTy).Contents (Elt F)),
    unary main_v29 main_v30 (broadcastInDim S400000x96 ![0, 1] bcast_S1x96_S400000x96_0_1 : (⟨S1x96, .f32⟩ : BufTy).Contents (Elt F) → (⟨S400000x96, .f32⟩ : BufTy).Contents (Elt F)),
    binary main_v28 main_v30 main_v31 (mulf : (⟨S400000x96, .f32⟩ : BufTy).Contents (Elt F) → (⟨S400000x96, .f32⟩ : BufTy).Contents (Elt F) → (⟨S400000x96, .f32⟩ : BufTy).Contents (Elt F)),
    unary main_arg3 main_v32 (broadcastInDim S1x96 ![1] bcast_S96_S1x96_1 : (⟨S96, .f32⟩ : BufTy).Contents (Elt F) → (⟨S1x96, .f32⟩ : BufTy).Contents (Elt F)),
    unary main_v32 main_v33 (broadcastInDim S400000x96 ![0, 1] bcast_S1x96_S400000x96_0_1 : (⟨S1x96, .f32⟩ : BufTy).Contents (Elt F) → (⟨S400000x96, .f32⟩ : BufTy).Contents (Elt F)),
    binary main_v31 main_v33 main_v34 (addf : (⟨S400000x96, .f32⟩ : BufTy).Contents (Elt F) → (⟨S400000x96, .f32⟩ : BufTy).Contents (Elt F) → (⟨S400000x96, .f32⟩ : BufTy).Contents (Elt F)),
    nullary main_cst_7 (constant S_ .f32 0x00000000#32),
    unary main_cst_7 main_v35 (broadcastInDim S400000x96 ![] bcast_S_S400000x96 : (⟨S_, .f32⟩ : BufTy).Contents (Elt F) → (⟨S400000x96, .f32⟩ : BufTy).Contents (Elt F)),
    binary main_v34 main_v35 main_v36 (maximumf : (⟨S400000x96, .f32⟩ : BufTy).Contents (Elt F) → (⟨S400000x96, .f32⟩ : BufTy).Contents (Elt F) → (⟨S400000x96, .f32⟩ : BufTy).Contents (Elt F)) ]

/-- `@main` is that line: the two helpers' bodies unfold where they are called, and a sequence bound to a
    continuation is the sequence of its steps each bound to it, all by computation. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-! ## The result as a composition of stages, at the ideal instance -/

/-- The source rows gathered per group: a negative row number counts from the end (the row count is added to
    it), and entry `(g, n, ·)` is the source's row numbered so by `a4 (g, n)`. -/
def gathered (a0 : FVec Ideal S200000x128 .f32) (a4 : IVec S8x200000 32) : FVec Ideal S8x200000x128 .f32 :=
  Host.gather gather_S200000x128_S8x200000x1_S8x200000x128_2_0_n_n_0_2_1128 a0
    (broadcastInDim S8x200000x1 ![0, 1] bcast_S8x200000_S8x200000x1_0_1
      (select (cmpi .slt a4 (broadcastInDim S8x200000 ![] bcast_S_S8x200000 (constantI S_ 32 0#32)))
        (addi a4 (broadcastInDim S8x200000 ![] bcast_S_S8x200000 (constantI S_ 32 200000#32))) a4))

/-- Per group, the gathered rows times the group's weight matrix. -/
def partialR (g : FVec Ideal S8x200000x128 .f32) (a1 : FVec Ideal S8x128x96 .f32) : FVec Ideal S8x200000x96 .f32 :=
  Host.dotGeneral (F := Ideal) dot_S8x200000x128_S8x128x96_S8x200000x96_2_1_1_2_0_0 none g a1

/-- The destination row of each product row: `a5`, a negative number counting from the end. -/
def outIdx (a5 : IVec S8x200000 32) : IVec S8x200000x1 32 :=
  broadcastInDim S8x200000x1 ![0, 1] bcast_S8x200000_S8x200000x1_0_1
    (select (cmpi .slt a5 (broadcastInDim S8x200000 ![] bcast_S_S8x200000 (constantI S_ 32 0#32)))
      (addi a5 (broadcastInDim S8x200000 ![] bcast_S_S8x200000 (constantI S_ 32 400000#32))) a5)

/-- The product rows accumulated, from zero, at their destination rows. -/
def outR (p : FVec Ideal S8x200000x96 .f32) (a5 : IVec S8x200000 32) : FVec Ideal S400000x96 .f32 :=
  Host.scatterAdd (F := Ideal) scatter_S400000x96_S8x200000x1_S8x200000x96_2_0_0_2
    (broadcastInDim S400000x96 ![] bcast_S_S400000x96 (constant (F := Ideal) S_ .f32 0x00000000#32)) (outIdx a5) p

/-- The column means: each column's sum over the rows, from zero, divided by the row count. -/
def colMean (out : FVec Ideal S400000x96 .f32) : FVec Ideal S96 .f32 :=
  Host.divf (Host.reduceAdd (F := Ideal) out (constant (F := Ideal) S_ .f32 0x00000000#32) reducesTo_S400000x96_S96_d0 h_S_)
    (broadcastInDim S96 ![] bcast_S_S96 (constant (F := Ideal) S_ .f32 0x48C35000#32))

/-- The entries less their column's mean, the mean taken as the variance helper takes it (summed, laid out as one
    row, divided by the row count, repeated down the rows). -/
def centered (out : FVec Ideal S400000x96 .f32) : FVec Ideal S400000x96 .f32 :=
  subf out
    (broadcastInDim S400000x96 ![0, 1] bcast_S1x96_S400000x96_0_1
      (Host.divf
        (broadcastInDim S1x96 ![1] bcast_S96_S1x96_1
          (Host.reduceAdd (F := Ideal) out (constant (F := Ideal) S_ .f32 0x00000000#32) reducesTo_S400000x96_S96_d0 h_S_))
        (broadcastInDim S1x96 ![] bcast_S_S1x96 (constant (F := Ideal) S_ .f32 0x48C35000#32))))

/-- The divisor of the variance: the row count less the correction, the integer zero read as a float. -/
def varDenom : FVec Ideal S_ .f32 :=
  subf (constant (F := Ideal) S_ .f32 0x48C35000#32) (sitofp (F := Ideal) .f32 (constantI S_ 32 0#32))

/-- The column variances: each column's sum of squared centered entries over the divisor, kept where the divisor
    is positive and the quiet not-a-number word's value elsewhere. -/
def colVar (out : FVec Ideal S400000x96 .f32) : FVec Ideal S96 .f32 :=
  select (broadcastInDim S96 ![] bcast_S_S96 (cmpf .ogt varDenom (constant (F := Ideal) S_ .f32 0x00000000#32)))
    (Host.divf
      (Host.reduceAdd (F := Ideal) (mulf (centered out) (centered out)) (constant (F := Ideal) S_ .f32 0x00000000#32) reducesTo_S400000x96_S96_d0 h_S_)
      (broadcastInDim S96 ![] bcast_S_S96 varDenom))
    (broadcastInDim S96 ![] bcast_S_S96 (id (constant (F := Ideal) S_ .f32 0x7FC00000#32)))

/-- The normalisation: each entry less its column's mean, times the reciprocal root of the column's variance plus
    the small constant, times the column's scale, plus the column's shift, and not below zero. -/
def finalR (out : FVec Ideal S400000x96 .f32) (a2 a3 : FVec Ideal S96 .f32) : FVec Ideal S400000x96 .f32 :=
  maximumf
    (addf
      (mulf
        (mulf (subf out (broadcastInDim S400000x96 ![0, 1] bcast_S1x96_S400000x96_0_1 (broadcastInDim S1x96 ![1] bcast_S96_S1x96_1 (colMean out))))
          (broadcastInDim S400000x96 ![0, 1] bcast_S1x96_S400000x96_0_1 (broadcastInDim S1x96 ![1] bcast_S96_S1x96_1 (Host.rsqrt (addf (colVar out) (broadcastInDim S96 ![] bcast_S_S96 (constant (F := Ideal) S_ .f32 0x3727C5AC#32)))))))
        (broadcastInDim S400000x96 ![0, 1] bcast_S1x96_S400000x96_0_1 (broadcastInDim S1x96 ![1] bcast_S96_S1x96_1 a2)))
      (broadcastInDim S400000x96 ![0, 1] bcast_S1x96_S400000x96_0_1 (broadcastInDim S1x96 ![1] bcast_S96_S1x96_1 a3)))
    (broadcastInDim S400000x96 ![] bcast_S_S400000x96 (constant (F := Ideal) S_ .f32 0x00000000#32))

/-- What the program leaves in its result buffer, of the six argument arrays. -/
def result (a0 : FVec Ideal S200000x128 .f32) (a1 : FVec Ideal S8x128x96 .f32) (a2 a3 : FVec Ideal S96 .f32)
    (a4 a5 : IVec S8x200000 32) : FVec Ideal S400000x96 .f32 :=
  finalR (outR (partialR (gathered a0 a4) a1) a5) a2 a3

/-! ## The run -/

/-- After the line the result buffer holds `result` of what the argument buffers held before it: each operation
    leaves its function's value in its own buffer and every other buffer as it was, and the composition of those
    functions along the line is `result`'s stages unfolded. -/
theorem out_eq (V : Valuation τ sig (Elt Ideal)) :
    after (ops (F := Ideal)) V (Proc.devRef (τ := τ) .tc main_v36)
      = result (V (Proc.devRef (τ := τ) .tc main_arg0)) (V (Proc.devRef (τ := τ) .tc main_arg1)) (V (Proc.devRef (τ := τ) .tc main_arg2)) (V (Proc.devRef (τ := τ) .tc main_arg3))
          (V (Proc.devRef (τ := τ) .tc main_arg4)) (V (Proc.devRef (τ := τ) .tc main_arg5)) := by
  after_results_simp
  rfl

/-- No operation of the line writes an argument buffer. -/
theorem arg0_eq (V : Valuation τ sig (Elt Ideal)) :
    after (ops (F := Ideal)) V (Proc.devRef (τ := τ) .tc main_arg0) = V (Proc.devRef (τ := τ) .tc main_arg0) := by
  after_results_simp

theorem arg1_eq (V : Valuation τ sig (Elt Ideal)) :
    after (ops (F := Ideal)) V (Proc.devRef (τ := τ) .tc main_arg1) = V (Proc.devRef (τ := τ) .tc main_arg1) := by
  after_results_simp

theorem arg2_eq (V : Valuation τ sig (Elt Ideal)) :
    after (ops (F := Ideal)) V (Proc.devRef (τ := τ) .tc main_arg2) = V (Proc.devRef (τ := τ) .tc main_arg2) := by
  after_results_simp

theorem arg3_eq (V : Valuation τ sig (Elt Ideal)) :
    after (ops (F := Ideal)) V (Proc.devRef (τ := τ) .tc main_arg3) = V (Proc.devRef (τ := τ) .tc main_arg3) := by
  after_results_simp

theorem arg4_eq (V : Valuation τ sig (Elt Ideal)) :
    after (ops (F := Ideal)) V (Proc.devRef (τ := τ) .tc main_arg4) = V (Proc.devRef (τ := τ) .tc main_arg4) := by
  after_results_simp

theorem arg5_eq (V : Valuation τ sig (Elt Ideal)) :
    after (ops (F := Ideal)) V (Proc.devRef (τ := τ) .tc main_arg5) = V (Proc.devRef (τ := τ) .tc main_arg5) := by
  after_results_simp

/-- On every device, from any memory with zero counters: every weakly fair execution of `@main` at the ideal
    instance terminates with the result buffer at `result` of the arguments' launch contents and the six
    argument buffers unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v36)
        = result (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v36).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefRun

end
-- ==== Proof.KHost.lean ====
/-
  What the three stretches of host operations of the idealized kernel program compute, read off the
  boundary contents of the run (`Gen.W0 … Gen.W6`).

  * Before region 0: the row indices are wrapped (a negative index has the extent added) and the rows of the
    feature matrix are gathered.
  * Between regions 0 and 1: the [8,200000,96] products are flattened to [1600000,96], the target indices
    flattened and wrapped the same way, and the rows are accumulated into a zero [400000,96] array.
  * Between regions 1 and 2: the two column statistics become the mean `S / N` and the variance
    `Q / N - mean * mean`, each laid out as one row; the scale and the shift are laid out as rows too.
-/
import proofs.«110483_j76673756168768_1_alg».proof.Defs
import proofs.«110483_j76673756168768_1_alg».proof.Proof.Gen.KernelIdeal.Frame
import Idealize.ShloMosaic.Lib.StableHlo.Run

set_option maxRecDepth 16384

noncomputable section

namespace Cert.KernelIdeal.KVal

open Idealize.ShloMosaic Idealize.ShloMosaic.TcCoe Idealize.ShloMosaic.Tactic Idealize.ShloMosaic.StableHlo
open Idealize.SL.Sem
open Cert.KernelIdeal Cert.KernelIdeal.Gen

variable (m : (ℓ : Loc nD τ sig) → Buf (Elt Ideal) ℓ) (ρ : Dev nD → PrngReg)

/-! ## The stages as functions of the arrays they read -/

/-- Row indices into the feature matrix, a negative one wrapped by the extent 200000, as a column of
    one-component start indices. -/
def wrapIn (a4 : IVec S8x200000 32) : IVec S8x200000x1 32 :=
  broadcastInDim S8x200000x1 ![0, 1] Facts₀.bcast_S8x200000_S8x200000x1_0_1
    (select (cmpi .slt a4 (broadcastInDim S8x200000 ![] Facts₀.bcast_S_S8x200000 (constantI S_ 32 0#32)))
      (addi a4 (broadcastInDim S8x200000 ![] Facts₀.bcast_S_S8x200000 (constantI S_ 32 200000#32))) a4)

/-- The gathered rows: for each offset `k` and each `m`, the feature row the wrapped index names. -/
def gatheredK (a0 : FVec Ideal S200000x128 .f32) (a4 : IVec S8x200000 32) : FVec Ideal S8x200000x128 .f32 :=
  Host.gather gather_S200000x128_S8x200000x1_S8x200000x128_2_0_n_n_0_2_1128 a0 (wrapIn a4)

/-- The flattened target indices, a negative one wrapped by the extent 400000, as a column of one-component
    scatter indices. -/
def wrapOutFlat (a5 : IVec S8x200000 32) : IVec S1600000x1 32 :=
  broadcastInDim S1600000x1 ![0] Facts₀.bcast_S1600000_S1600000x1_0
    (select (cmpi .slt (shapeCast S1600000 a5 Facts₀.shapeCasts_S8x200000_S1600000)
        (broadcastInDim S1600000 ![] Facts₀.bcast_S_S1600000 (constantI S_ 32 0#32)))
      (addi (shapeCast S1600000 a5 Facts₀.shapeCasts_S8x200000_S1600000)
        (broadcastInDim S1600000 ![] Facts₀.bcast_S_S1600000 (constantI S_ 32 400000#32)))
      (shapeCast S1600000 a5 Facts₀.shapeCasts_S8x200000_S1600000))

/-- The accumulated array: zero plus, at each row, the sum of the flattened product rows whose wrapped target
    index is that row. -/
def scatteredK (p : FVec Ideal S8x200000x96 .f32) (a5 : IVec S8x200000 32) : FVec Ideal S400000x96 .f32 :=
  Host.scatterAdd scatter_S400000x96_S1600000x1_S1600000x96_1_0_0_1
    (broadcastInDim S400000x96 ![] Facts₀.bcast_S_S400000x96 (constant (F := Ideal) S_ .f32 0x00000000#32))
    (wrapOutFlat a5) (shapeCast S1600000x96 p Facts₀.shapeCasts_S8x200000x96_S1600000x96)

/-- A column statistic `[1,96]` divided by the count, as a vector `[96]`. -/
def perCount (s : FVec Ideal S1x96 .f32) : FVec Ideal S96 .f32 :=
  Host.divf (shapeCast S96 s Facts₀.shapeCasts_S1x96_S96)
    (broadcastInDim S96 ![] Facts₀.bcast_S_S96 (constant (F := Ideal) S_ .f32 0x48C35000#32))

/-- The mean row. -/
def meanRow (s : FVec Ideal S1x96 .f32) : FVec Ideal S1x96 .f32 :=
  shapeCast S1x96 (perCount s) Facts₀.shapeCasts_S96_S1x96

/-- The variance row: the mean of the squares minus the square of the mean. -/
def varRow (s q : FVec Ideal S1x96 .f32) : FVec Ideal S1x96 .f32 :=
  shapeCast S1x96 (subf (perCount q) (mulf (perCount s) (perCount s))) Facts₀.shapeCasts_S96_S1x96

/-- A vector `[96]` laid out as a row `[1,96]`. -/
def asRow (v : FVec Ideal S96 .f32) : FVec Ideal S1x96 .f32 := shapeCast S1x96 v Facts₀.shapeCasts_S96_S1x96

/-! ## The boundaries -/

/-- Region 0 is entered with the gathered rows in its first window's array. -/
theorem V1_v6 (c : Dev nD) :
    V1 m ρ c main_v6 = gatheredK (m ((c : Thread nD τ).loc main_arg0)) (m ((c : Thread nD τ).loc main_arg4)) := by
  show StableHlo.after hostOps0 (W0 m ρ c) (Proc.devRef .tc main_v6) = _
  after_results
  rfl

/-- … and with the weights as launched in its second. -/
theorem V1_arg1 (c : Dev nD) : V1 m ρ c main_arg1 = m ((c : Thread nD τ).loc main_arg1) := by
  show StableHlo.after hostOps0 (W0 m ρ c) (Proc.devRef .tc main_arg1) = _
  after_results

/-- The target indices reach the second stretch as launched. -/
theorem V2_arg5 (c : Dev nD) : V2 m ρ c main_arg5 = m ((c : Thread nD τ).loc main_arg5) := by
  refine (W2_of_ne m ρ c main_arg5 (by decide)).trans ?_
  show StableHlo.after hostOps0 (W0 m ρ c) (Proc.devRef .tc main_arg5) = _
  after_results

/-- Region 0 leaves its output array at what its write-backs hold. -/
theorem V2_v7 (c : Dev nD) : V2 m ρ c main_v7 = (dat0 (V1 m ρ) c).arrAt 2 cfg0.N := W2_arr m ρ c 2

/-- Region 1 is entered with the accumulated array of the products region 0 left. -/
theorem V3_v17 (c : Dev nD) :
    V3 m ρ c main_v17 = scatteredK ((dat0 (V1 m ρ) c).arrAt 2 cfg0.N) (m ((c : Thread nD τ).loc main_arg5)) := by
  show StableHlo.after hostOps1 (W2 m ρ c) (Proc.devRef .tc main_v17) = _
  after_results
  rw [show W2 m ρ c (Proc.devRef .tc main_v7) = (dat0 (V1 m ρ) c).arrAt 2 cfg0.N from W2_arr m ρ c 2,
    show W2 m ρ c (Proc.devRef .tc main_arg5) = m ((c : Thread nD τ).loc main_arg5) from V2_arg5 m ρ c]
  rfl

/-- Region 1 leaves its input array as it found it … -/
theorem V4_v17 (c : Dev nD) : V4 m ρ c main_v17 = V3 m ρ c main_v17 :=
  (W4_arr m ρ c 0).trans (((dat1 (V3 m ρ) c).arrAt_in 0 rfl _).trans (A_eq1 (V3 m ρ) c 0))

/-- … and its two accumulators at what their write-backs hold. -/
theorem V4_sum (c : Dev nD) : V4 m ρ c main_v18_0 = (dat1 (V3 m ρ) c).arrAt 1 cfg1.N := W4_arr m ρ c 1
theorem V4_sumsq (c : Dev nD) : V4 m ρ c main_v18_1 = (dat1 (V3 m ρ) c).arrAt 2 cfg1.N := W4_arr m ρ c 2

/-- The scale and the shift reach the third stretch as launched. -/
theorem V4_arg2 (c : Dev nD) : V4 m ρ c main_arg2 = m ((c : Thread nD τ).loc main_arg2) := by
  refine (W4_of_ne m ρ c main_arg2 (by decide)).trans ?_
  show StableHlo.after hostOps1 (W2 m ρ c) (Proc.devRef .tc main_arg2) = _
  after_results
  refine (W2_of_ne m ρ c main_arg2 (by decide)).trans ?_
  show StableHlo.after hostOps0 (W0 m ρ c) (Proc.devRef .tc main_arg2) = _
  after_results
theorem V4_arg3 (c : Dev nD) : V4 m ρ c main_arg3 = m ((c : Thread nD τ).loc main_arg3) := by
  refine (W4_of_ne m ρ c main_arg3 (by decide)).trans ?_
  show StableHlo.after hostOps1 (W2 m ρ c) (Proc.devRef .tc main_arg3) = _
  after_results
  refine (W2_of_ne m ρ c main_arg3 (by decide)).trans ?_
  show StableHlo.after hostOps0 (W0 m ρ c) (Proc.devRef .tc main_arg3) = _
  after_results

/-- Region 2 is entered with the accumulated array, the mean row, the variance row, and the scale and the
    shift as rows. -/
theorem V5_v17 (c : Dev nD) : V5 m ρ c main_v17 = V3 m ρ c main_v17 := by
  show StableHlo.after hostOps2 (W4 m ρ c) (Proc.devRef .tc main_v17) = _
  after_results
  exact V4_v17 m ρ c
theorem V5_v27 (c : Dev nD) : V5 m ρ c main_v27 = meanRow ((dat1 (V3 m ρ) c).arrAt 1 cfg1.N) := by
  show StableHlo.after hostOps2 (W4 m ρ c) (Proc.devRef .tc main_v27) = _
  after_results
  rw [show W4 m ρ c (Proc.devRef .tc main_v18_0) = (dat1 (V3 m ρ) c).arrAt 1 cfg1.N from W4_arr m ρ c 1]
  rfl
theorem V5_v28 (c : Dev nD) :
    V5 m ρ c main_v28 = varRow ((dat1 (V3 m ρ) c).arrAt 1 cfg1.N) ((dat1 (V3 m ρ) c).arrAt 2 cfg1.N) := by
  show StableHlo.after hostOps2 (W4 m ρ c) (Proc.devRef .tc main_v28) = _
  after_results
  rw [show W4 m ρ c (Proc.devRef .tc main_v18_0) = (dat1 (V3 m ρ) c).arrAt 1 cfg1.N from W4_arr m ρ c 1,
    show W4 m ρ c (Proc.devRef .tc main_v18_1) = (dat1 (V3 m ρ) c).arrAt 2 cfg1.N from W4_arr m ρ c 2]
  rfl
theorem V5_v29 (c : Dev nD) : V5 m ρ c main_v29 = asRow (m ((c : Thread nD τ).loc main_arg2)) := by
  show StableHlo.after hostOps2 (W4 m ρ c) (Proc.devRef .tc main_v29) = _
  after_results
  rw [show W4 m ρ c (Proc.devRef .tc main_arg2) = m ((c : Thread nD τ).loc main_arg2) from V4_arg2 m ρ c]
  rfl
theorem V5_v30 (c : Dev nD) : V5 m ρ c main_v30 = asRow (m ((c : Thread nD τ).loc main_arg3)) := by
  show StableHlo.after hostOps2 (W4 m ρ c) (Proc.devRef .tc main_v30) = _
  after_results
  rw [show W4 m ρ c (Proc.devRef .tc main_arg3) = m ((c : Thread nD τ).loc main_arg3) from V4_arg3 m ρ c]
  rfl

end Cert.KernelIdeal.KVal

end
-- ==== Proof.KRows.lean ====
/-
  The rows region 2 reads, entry by entry: the mean row holds `S / N`, the variance row
  `Q / N - (S / N) * (S / N)` (with `S`, `Q` the column sum and the column sum of squares and `N` the count
  constant), and the scale and shift rows hold the vectors' entries.
-/
import proofs.«110483_j76673756168768_1_alg».proof.Proof.KHost
import Idealize.ShloMosaic.Lib.ValueIdx
import Idealize.ShloMosaic.Lib.ValueLayout
import Idealize.ShloMosaic.Lib.Pipeline.Value

noncomputable section

namespace Cert.KernelIdeal.KVal

open Idealize.ShloMosaic Idealize.ShloMosaic.ValueIdx
open Cert.KernelIdeal

/-- A column statistic divided by the count, entry by entry. -/
theorem perCount_apply (s : FVec Ideal S1x96 .f32) (e : Fin 96) :
    perCount s (ix1 e) = Ideal.div (s (ix2 (0 : Fin 1) e)) (Ideal.ofBits .f32 0x48C35000#32) := by
  show Ideal.div (shapeCast S96 s Facts₀.shapeCasts_S1x96_S96 (ix1 e))
      (broadcastInDim S96 ![] Facts₀.bcast_S_S96 (constant (F := Ideal) S_ .f32 0x48C35000#32) (ix1 e)) = _
  rw [shapeCast_1a_a_apply]
  rfl

theorem meanRow_apply (s : FVec Ideal S1x96 .f32) (e : Fin 96) :
    meanRow s (ix2 (0 : Fin 1) e) = Ideal.div (s (ix2 (0 : Fin 1) e)) (Ideal.ofBits .f32 0x48C35000#32) := by
  unfold meanRow
  rw [shapeCast_a_1a_apply, perCount_apply]

theorem varRow_apply (s q : FVec Ideal S1x96 .f32) (e : Fin 96) :
    varRow s q (ix2 (0 : Fin 1) e)
      = Ideal.div (q (ix2 (0 : Fin 1) e)) (Ideal.ofBits .f32 0x48C35000#32)
        - Ideal.div (s (ix2 (0 : Fin 1) e)) (Ideal.ofBits .f32 0x48C35000#32)
          * Ideal.div (s (ix2 (0 : Fin 1) e)) (Ideal.ofBits .f32 0x48C35000#32) := by
  unfold varRow
  rw [shapeCast_a_1a_apply, subf_apply, mulf_apply, perCount_apply, perCount_apply]

theorem asRow_apply (v : FVec Ideal S96 .f32) (e : Fin 96) : asRow v (ix2 (0 : Fin 1) e) = v (ix1 e) := by
  unfold asRow
  rw [shapeCast_a_1a_apply]

end Cert.KernelIdeal.KVal

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.KRegion0.lean ====
/-
  The first region, a batched matrix product, as one function of its two input arrays.

  The grid has 8 × 25 points; point (k, i) takes rows 8000·i … 8000·i + 7999 of batch k of the left array (a
  [1, 8000, 128] block), the whole [1, 128, 96] matrix of batch k of the right array, and stores their product into rows
  8000·i … 8000·i + 7999 of batch k of the result. Every point writes its block back, and the 200 blocks tile the
  [8, 200000, 96] result, so after the region the result at (k, r, d) is Σ_cc L(k, r, cc) · R(k, cc, d), whatever the arrays
  held when the region was entered.
-/
import proofs.«110483_j76673756168768_1_alg».proof.Proof.Gen.KernelIdeal.Frame
import proofs.«110483_j76673756168768_1_alg».proof.Proof.LibPlainMatmul
import Idealize.ShloMosaic.Lib.ValueIdx
import Idealize.ShloMosaic.Lib.ValueLayout
import Idealize.ShloMosaic.Lib.Pipeline.Value

set_option maxRecDepth 16384

noncomputable section

namespace Cert.KernelIdeal.KVal

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The arrays behind the three windows -/

theorem arr0_0 : Pipeline.arrRef spec0 0 = main_v6 := rfl
theorem arr0_1 : Pipeline.arrRef spec0 1 = main_arg1 := rfl
theorem arr0_2 : Pipeline.arrRef spec0 2 = main_v7 := rfl

/-! ## One block's product at an index -/

/-- The body's contraction is the ordinary one: left columns against right rows, no batch axis. -/
theorem dot_plain : dot_S8000x128_S128x96_S8000x96_1_0_0_1_n_n = DotDims.plain 8000 128 96 := rfl

/-- Entry (0, p, d) of the block the body stores: row p of the left block times column d of the right block. The unit
    leading axis is dropped and put back by the casts, and the change of float format is the identity on ideal values. -/
theorem pay_apply (x0 : Vec Ideal S1x8000x128 .f32) (x1 : Vec Ideal S1x128x96 .f32) (u : Fin 1) (p : Fin 8000) (d : Fin 96) :
    Gen.k0_pay1 (F := Ideal) x0 x1 (ix3 u p d) = ∑ cc : Fin 128, x0 (ix3 (0 : Fin 1) p cc) * x1 (ix3 (0 : Fin 1) cc d) := by
  unfold Gen.k0_pay1
  refine (shapeCast_ab_1ab_apply _ _ u p d).trans ?_
  rw [dot_plain]
  refine (matmul_plain_zero_apply 8000 128 96 none _ _ p d).trans ?_
  refine Finset.sum_congr rfl fun cc _ => ?_
  rw [truncf_apply, truncf_apply, shapeCast_1ab_ab_apply, shapeCast_1ab_ab_apply]

/-! ## The whole-array function -/

/-- The batched product at (k, r, d). -/
def prodAt (a : S8x200000x128.Idx → Ideal .f32) (b : S8x128x96.Idx → Ideal .f32) (k : Fin 8) (r : Fin 200000) (d : Fin 96) : Ideal .f32 :=
  ∑ cc : Fin 128, a (ix3 k r cc) * b (ix3 k cc d)

theorem prodAt_def (a : S8x200000x128.Idx → Ideal .f32) (b : S8x128x96.Idx → Ideal .f32) (k : Fin 8) (r : Fin 200000) (d : Fin 96) :
    prodAt a b k r d = ∑ cc : Fin 128, a (ix3 k r cc) * b (ix3 k cc d) := rfl

/-- The batched product as an array. -/
def prodArr (a : S8x200000x128.Idx → Ideal .f32) (b : S8x128x96.Idx → Ideal .f32) : S8x200000x96.Idx → Ideal .f32 :=
  fun i => prodAt a b (i 0) (i 1) (i 2)

/-- A block's product is the batched product where the block sits: if the left block is rows q, q + 1, … of batch k and
    the right block is the matrix of batch k, the stored block at (0, p, d) is the batched product at (k, q + p, d). -/
theorem pay_block (x0 : Vec Ideal S1x8000x128 .f32) (x1 : Vec Ideal S1x128x96 .f32)
    (a : S8x200000x128.Idx → Ideal .f32) (b : S8x128x96.Idx → Ideal .f32) (j : S1x8000x96.Idx) (i : S8x200000x96.Idx) (q : Nat)
    (h0 : ∀ (p : Fin 8000) (cc : Fin 128) (r : Fin 200000), r.val = q + p.val → x0 (ix3 (0 : Fin 1) p cc) = a (ix3 (i 0) r cc))
    (h1 : ∀ (cc : Fin 128) (d : Fin 96), x1 (ix3 (0 : Fin 1) cc d) = b (ix3 (i 0) cc d))
    (hi1 : (i 1).val = q + (j 1).val) (hi2 : (i 2).val = (j 2).val) :
    Gen.k0_pay1 (F := Ideal) x0 x1 j = prodArr a b i := by
  obtain ⟨u, p, d, rfl⟩ : ∃ (u : Fin 1) (p : Fin 8000) (d : Fin 96), j = ix3 u p d := ⟨j 0, j 1, j 2, eq_ix3 j⟩
  obtain ⟨k, r, e, rfl⟩ : ∃ (k : Fin 8) (r : Fin 200000) (e : Fin 96), i = ix3 k r e := ⟨i 0, i 1, i 2, eq_ix3 i⟩
  rw [pay_apply]
  show _ = ∑ cc : Fin 128, a (ix3 k r cc) * b (ix3 k cc e)
  have ed : d = e := Fin.ext hi2.symm
  subst ed
  refine Finset.sum_congr rfl fun cc _ => ?_
  rw [h0 p cc r hi1, h1 cc d]

/-! ## The grid -/

theorem zero3 : (![0, 0, 0] : Fin 3 → Nat) = fun _ => 0 := funext fun a => by fin_cases a <;> rfl

/-- Point t of the 8 × 25 grid has coordinates (t / 25, t mod 25); the left and result blocks are indexed by both, the
    right block by the batch alone. -/
theorem grid_idx : ∀ t : Fin cfg0.N,
    win0_0.index t (0 : Fin 3) = t.val / 25 ∧ win0_0.index t (1 : Fin 3) = t.val % 25 ∧ win0_0.index t (2 : Fin 3) = 0
    ∧ win0_1.index t (0 : Fin 3) = t.val / 25 ∧ win0_1.index t (1 : Fin 3) = 0 ∧ win0_1.index t (2 : Fin 3) = 0
    ∧ win0_2.index t (0 : Fin 3) = t.val / 25 ∧ win0_2.index t (1 : Fin 3) = t.val % 25 ∧ win0_2.index t (2 : Fin 3) = 0 :=
  (by decide +kernel : ∀ t : Fin grid0.N, _)

/-- The left block at point t is rows 8000·(t mod 25) … of batch t / 25 of the left array. -/
theorem lblk_apply (c : Dev nD) (t : Fin cfg0.N) (x : S1x8000x128.Idx) (i : S8x200000x128.Idx)
    (h0 : (i 0).val = t.val / 25) (h1 : (i 1).val = t.val % 25 * 8000 + (x 1).val) (h2 : (i 2).val = (x 2).val) :
    (iblk0 V c 0 t : Vec Ideal S1x8000x128 .f32) x = (V c main_v6 : S8x200000x128.Idx → Ideal .f32) i := by
  obtain ⟨e0, e1, e2, -⟩ := grid_idx t
  unfold iblk0
  rw [View.read_apply]
  show V c main_v6 _ = V c main_v6 _
  congr 1
  funext a
  apply Fin.ext
  have hx : (x 0).val < 1 := (x 0).isLt
  match a with
  | ⟨0, _⟩ => show win0_0.index t (0 : Fin 3) * 1 + 1 * (x 0).val = (i 0).val; omega
  | ⟨1, _⟩ => show win0_0.index t (1 : Fin 3) * 8000 + 1 * (x 1).val = (i 1).val; omega
  | ⟨2, _⟩ => show win0_0.index t (2 : Fin 3) * 128 + 1 * (x 2).val = (i 2).val; omega

/-- The right block at point t is the matrix of batch t / 25 of the right array. -/
theorem rblk_apply (c : Dev nD) (t : Fin cfg0.N) (x : S1x128x96.Idx) (i : S8x128x96.Idx)
    (h0 : (i 0).val = t.val / 25) (h1 : (i 1).val = (x 1).val) (h2 : (i 2).val = (x 2).val) :
    (iblk0 V c 1 t : Vec Ideal S1x128x96 .f32) x = (V c main_arg1 : S8x128x96.Idx → Ideal .f32) i := by
  obtain ⟨-, -, -, e0, e1, e2, -⟩ := grid_idx t
  unfold iblk0
  rw [View.read_apply]
  show V c main_arg1 _ = V c main_arg1 _
  congr 1
  funext a
  apply Fin.ext
  have hx : (x 0).val < 1 := (x 0).isLt
  match a with
  | ⟨0, _⟩ => show win0_1.index t (0 : Fin 3) * 1 + 1 * (x 0).val = (i 0).val; omega
  | ⟨1, _⟩ => show win0_1.index t (1 : Fin 3) * 128 + 1 * (x 1).val = (i 1).val; omega
  | ⟨2, _⟩ => show win0_1.index t (2 : Fin 3) * 96 + 1 * (x 2).val = (i 2).val; omega

/-! ## What a point writes back, the cover, and the array after the region -/

/-- What point t writes back is block t of the batched product of the two arrays as the region finds them. -/
theorem flushed_eq (c : Dev nD) (t : Fin cfg0.N) :
    (Gen.dat0 (F := Ideal) V c).flushed 2 t
      = ((cfg0.win 2).blk t).view.read (Elt Ideal) (prodArr (V c main_v6) (V c main_arg1)) := by
  show (cfg0.win 2).cut (grid0.coords t) ((dat0 V c).after 2 t) = _
  rw [after0_2]
  unfold out0_2
  rw [View.canon_unit_zero zero3]
  simp only [View.ld_unit_zero (S := S1x8000x128) zero3, View.ld_unit_zero (S := S1x128x96) zero3]
  obtain ⟨-, -, -, -, -, -, e0, e1, e2⟩ := grid_idx t
  funext j
  show Gen.k0_pay1 (F := Ideal) (iblk0 V c 0 t) (iblk0 V c 1 t) j
    = prodArr (V c main_v6) (V c main_arg1) (((cfg0.win 2).blk t).view.emb j)
  have hj0 : (j 0).val < 1 := (j 0).isLt
  have i0 : ((((cfg0.win 2).blk t).view.emb j) 0).val = t.val / 25 := by
    show win0_2.index t (0 : Fin 3) * 1 + 1 * (j 0).val = _; omega
  have i1 : ((((cfg0.win 2).blk t).view.emb j) 1).val = t.val % 25 * 8000 + (j 1).val := by
    show win0_2.index t (1 : Fin 3) * 8000 + 1 * (j 1).val = _; omega
  have i2 : ((((cfg0.win 2).blk t).view.emb j) 2).val = (j 2).val := by
    show win0_2.index t (2 : Fin 3) * 96 + 1 * (j 2).val = _; omega
  exact pay_block (iblk0 V c 0 t) (iblk0 V c 1 t) (V c main_v6) (V c main_arg1) j _ (t.val % 25 * 8000)
    (fun p cc r hr => lblk_apply V c t (ix3 (0 : Fin 1) p cc) _ i0 hr rfl)
    (fun cc d => rblk_apply V c t (ix3 (0 : Fin 1) cc d) _ i0 rfl rfl) i1 i2

/-- An index of the result is in point t's block iff each coordinate is in the block's range on its axis. -/
theorem mem_blk (t : Fin cfg0.N) (i : S8x200000x96.Idx) :
    i ∈ ((cfg0.win 2).blk t).view.set ↔ ∀ a : Fin 3, win0_2.index t a * S1x8000x96.size a ≤ (i a).val
      ∧ (i a).val < win0_2.index t a * S1x8000x96.size a + S1x8000x96.size a := by
  show i ∈ ((View.whole main_v7).slice (win0_2.rect t)).set ↔ _
  rw [View.set_slice_whole, Rect.mem_set_unit]
  exact Iff.rfl

/-- Row r of batch k lies in the block of point 25·k + r / 8000, which writes it back: the blocks tile the result. -/
theorem covered (i : S8x200000x96.Idx) :
    ∃ t : Fin cfg0.N, (cfg0.win 2).flush t = true ∧ i ∈ ((cfg0.win 2).blk t).view.set := by
  have h0 : (i 0).val < 8 := (i 0).isLt
  have h1 : (i 1).val < 200000 := (i 1).isLt
  have h2 : (i 2).val < 96 := (i 2).isLt
  have hN : cfg0.N = 200 := N_0
  obtain ⟨t, ht⟩ : ∃ t : Fin cfg0.N, t.val = (i 0).val * 25 + (i 1).val / 8000 :=
    ⟨⟨(i 0).val * 25 + (i 1).val / 8000, by rw [hN]; omega⟩, rfl⟩
  obtain ⟨-, -, -, -, -, -, e0, e1, e2⟩ := grid_idx t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 8000 ≤ (i 1).val ∧ (i 1).val < win0_2.index t (1 : Fin 3) * 8000 + 8000
    omega
  | ⟨2, _⟩ =>
    show win0_2.index t (2 : Fin 3) * 96 ≤ (i 2).val ∧ (i 2).val < win0_2.index t (2 : Fin 3) * 96 + 96
    omega

/-- The result array after the region is the batched product of the two arrays the region was entered with. -/
theorem partial_eq (c : Dev nD) :
    (Gen.dat0 (F := Ideal) V c).arrAt 2 cfg0.N = prodArr (V c main_v6) (V c main_arg1) :=
  (Gen.dat0 (F := Ideal) V c).arrAt_eq_of_cover 2 (prodArr (V c main_v6) (V c main_arg1))
    (fun t _ => flushed_eq V c t) covered

/-- The same, entry by entry: the result at (k, r, d) is Σ_cc L(k, r, cc) · R(k, cc, d) (`prodAt`, unfolded by `prodAt_def`). -/
theorem partial_apply (c : Dev nD) (k : Fin 8) (mm : Fin 200000) (d : Fin 96) :
    (Gen.dat0 (F := Ideal) V c).arrAt 2 cfg0.N (ix3 k mm d) = prodAt (V c main_v6) (V c main_arg1) k mm d := by
  rw [partial_eq]
  rfl

end Cert.KernelIdeal.KVal

end
-- ==== Proof.LibRunningTotal.lean ====
/-
  Running totals. A family `f` indexed by `Fin N` in a commutative additive monoid, added up one member at a
  time from the first: the total over the indices `≤ n` starts at `f 0`, takes in `f (n+1)` at step `n+1`, and
  at the last index is the sum of the whole family. This is what an accumulator that is reset at the first
  grid point and increased by one block's contribution at every point holds.
-/
import Mathlib.Algebra.BigOperators.Fin
import Mathlib.Data.Fintype.Basic

namespace RunningTotal

open Finset

variable {M : Type*} [AddCommMonoid M] {N : ℕ}

/-- The total of `f` over the indices `≤ n`. -/
def upTo (f : Fin N → M) (n : ℕ) : M := ∑ t ∈ (univ : Finset (Fin N)).filter (fun t => t.val ≤ n), f t

/-- At the first index the total is that member alone. -/
theorem upTo_zero (f : Fin N → M) (h : 0 < N) : upTo f 0 = f ⟨0, h⟩ := by
  unfold upTo
  have : (univ : Finset (Fin N)).filter (fun t => t.val ≤ 0) = {⟨0, h⟩} := by
    ext t
    simp only [mem_filter, mem_univ, true_and, mem_singleton, Nat.le_zero]
    exact ⟨fun e => Fin.ext e, fun e => by rw [e]⟩
  rw [this, sum_singleton]

/-- One step: the total over the indices `≤ n + 1` is the total over those `≤ n` plus the new member. -/
theorem upTo_succ (f : Fin N → M) (n : ℕ) (h : n + 1 < N) : upTo f (n + 1) = upTo f n + f ⟨n + 1, h⟩ := by
  unfold upTo
  have : (univ : Finset (Fin N)).filter (fun t => t.val ≤ n + 1)
      = insert ⟨n + 1, h⟩ ((univ : Finset (Fin N)).filter (fun t => t.val ≤ n)) := by
    ext t
    simp only [mem_filter, mem_univ, true_and, mem_insert]
    constructor
    · intro e
      rcases Nat.lt_or_ge t.val (n + 1) with e' | e'
      · exact Or.inr (Nat.lt_succ_iff.mp e')
      · exact Or.inl (Fin.ext (Nat.le_antisymm e e'))
    · rintro (e | e)
      · rw [e]
      · exact Nat.le_succ_of_le e
  rw [this, sum_insert, add_comm]
  simp only [mem_filter, mem_univ, true_and, not_le]
  exact Nat.lt_succ_self n

/-- At the last index the total is the sum of the whole family. -/
theorem upTo_last (f : Fin N → M) (n : ℕ) (h : N ≤ n + 1) : upTo f n = ∑ t, f t := by
  unfold upTo
  rw [filter_true_of_mem]
  intro t _
  exact Nat.lt_succ_iff.mp (lt_of_lt_of_le t.isLt h)

end RunningTotal
-- ==== Proof.LibTileSum.lean ====
/-
  A double sum over a matrix cut into equal tiles. An index `r < A * a` is `i * a + p` for one tile row `i < A`
  and one offset `p < a` inside it, so a sum over `r` is the sum over `i` of the sums over `p`; for two axes the
  sum over all entries of an `(A·a) × (B·b)` matrix is the sum over the `A × B` tiles of each tile's entries.
  Also the same for a tile counter: `t < A * B` read as row `t / B` and column `t % B` of the tile grid.
  Values in any commutative additive monoid (on the extended reals no finiteness is needed).
-/
import Mathlib.Algebra.BigOperators.Fin
import Mathlib.Logic.Equiv.Fin.Basic

namespace TileSum

open Finset

variable {M : Type*} [AddCommMonoid M]

/-- Offset `p` of tile `i` is below the whole extent. -/
theorem tile_lt {A a : ℕ} (i : Fin A) (p : Fin a) : i.val * a + p.val < A * a := by
  have h1 : i.val * a + p.val < i.val * a + a := Nat.add_lt_add_left p.isLt _
  have h2 : i.val * a + a ≤ A * a := by
    rw [← Nat.succ_mul]; exact Nat.mul_le_mul_right a i.isLt
  exact lt_of_lt_of_le h1 h2

/-- The index of offset `p` of tile `i` along an axis of extent `R = A * a`. -/
def idx {R A a : ℕ} (h : A * a = R) (i : Fin A) (p : Fin a) : Fin R := ⟨i.val * a + p.val, h ▸ tile_lt i p⟩

@[simp] theorem idx_val {R A a : ℕ} (h : A * a = R) (i : Fin A) (p : Fin a) : (idx h i p).val = i.val * a + p.val := rfl

/-- One axis: the sum over the axis is the sum over the tiles of the sums inside each tile. -/
theorem sum_axis {R A a : ℕ} (h : A * a = R) (g : Fin R → M) :
    ∑ r, g r = ∑ i : Fin A, ∑ p : Fin a, g (idx h i p) := by
  subst h
  rw [← Equiv.sum_comp finProdFinEquiv g, Fintype.sum_prod_type]
  refine sum_congr rfl fun i _ => sum_congr rfl fun p _ => congrArg g (Fin.ext ?_)
  show p.val + a * i.val = i.val * a + p.val
  rw [Nat.mul_comm, Nat.add_comm]

/-- Two axes: the sum over all entries is the sum over the tiles of the sums over each tile's entries. -/
theorem sum_matrix {R C A a B b : ℕ} (hR : A * a = R) (hC : B * b = C) (f : Fin R → Fin C → M) :
    ∑ r, ∑ c, f r c = ∑ i : Fin A, ∑ j : Fin B, ∑ p : Fin a, ∑ q : Fin b, f (idx hR i p) (idx hC j q) := by
  have h1 : ∀ r : Fin R, ∑ c, f r c = ∑ j : Fin B, ∑ q : Fin b, f r (idx hC j q) := fun r => sum_axis hC (f r)
  calc ∑ r, ∑ c, f r c = ∑ r, ∑ j : Fin B, ∑ q : Fin b, f r (idx hC j q) := sum_congr rfl fun r _ => h1 r
    _ = ∑ i : Fin A, ∑ p : Fin a, ∑ j : Fin B, ∑ q : Fin b, f (idx hR i p) (idx hC j q) :=
        sum_axis hR (fun r => ∑ j : Fin B, ∑ q : Fin b, f r (idx hC j q))
    _ = ∑ i : Fin A, ∑ j : Fin B, ∑ p : Fin a, ∑ q : Fin b, f (idx hR i p) (idx hC j q) :=
        sum_congr rfl fun i _ => sum_comm

/-- A tile counter `t < A * B`, row-major: the sum over `t` of a function of its row `t / B` and column `t % B` is
    the double sum over the rows and columns. -/
theorem sum_counter {N A B : ℕ} (h : A * B = N) (g : Fin A → Fin B → M) (row : Fin N → Fin A) (col : Fin N → Fin B)
    (hrow : ∀ t, (row t).val = t.val / B) (hcol : ∀ t, (col t).val = t.val % B) :
    ∑ t, g (row t) (col t) = ∑ i : Fin A, ∑ j : Fin B, g i j := by
  rw [sum_axis h (fun t => g (row t) (col t))]
  refine sum_congr rfl fun i _ => sum_congr rfl fun j _ => ?_
  have hB : 0 < B := Nat.pos_of_ne_zero fun e => by have := j.isLt; omega
  have e1 : row (idx h i j) = i := Fin.ext (by
    rw [hrow, idx_val, Nat.add_comm, Nat.add_mul_div_right _ _ hB, Nat.div_eq_of_lt j.isLt, Nat.zero_add])
  have e2 : col (idx h i j) = j := Fin.ext (by
    rw [hcol, idx_val, Nat.add_comm, Nat.add_mul_mod_self_right, Nat.mod_eq_of_lt j.isLt])
  rw [e1, e2]

end TileSum
-- ==== Proof.LibAxisSums.lean ====
/-
  Two readings of sums over small index sets:
  • at the ideal values a float sum reduction over the FIRST axis of an `[a, b]` matrix, read at column `c`, is the sum
    over `r : Fin a` of the entries `(r, c)` (the companion of the last-axis reading, which sums a row);
  • a rank-1 index set `[n]` is its one coordinate's range, so a sum over it is the sum over `Fin n` at `ix1`.
-/
import Idealize.ShloMosaic.Lib.ValueIdx
import Idealize.ShloMosaic.PureOps.Ideal.Laws

noncomputable section

open scoped BigOperators

namespace Cert.LibAxisSums

open Idealize.ShloMosaic Idealize.ShloMosaic.ValueIdx

/-- At the ideal values a float sum reduction over the FIRST axis of an `[a, b]` matrix, read at column `c`, is the sum
    of that column's `a` entries. -/
theorem multiReduction_add_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src ?_
  funext ax; apply Fin.ext
  match ax with
  | ⟨0, _⟩ => rfl
  | ⟨1, _⟩ => rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

end Cert.LibAxisSums

end
-- ==== Proof.KRegion1.lean ====
/-
  The statistics region of the kernel: what its two row accumulators hold when the region ends.
  The region walks the [400000, 96] array in 50 tiles of 8000 rows. At the first tile both [1, 96]
  accumulators are set to zero; at every tile the first takes in the column sums of the tile and the second
  the column sums of the tile's squares. Over the extended reals addition is commutative and associative, so
  after the last tile the first accumulator holds, in column e, the sum of column e over all 400000 rows, and
  the second the sum of the squares of column e.
-/
import proofs.«110483_j76673756168768_1_alg».proof.Proof.Gen.KernelIdeal.Frame
import proofs.«110483_j76673756168768_1_alg».proof.Proof.LibRunningTotal
import proofs.«110483_j76673756168768_1_alg».proof.Proof.LibTileSum
import proofs.«110483_j76673756168768_1_alg».proof.Proof.LibAxisSums
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open scoped BigOperators

namespace Cert.KernelIdeal.KVal

open Cert.KernelIdeal Cert.KernelIdeal.Gen Idealize.ShloMosaic Idealize.ShloMosaic.ValueIdx

section Pieces

variable {F : FTy → Type} [FloatOps F]

theorem hz2 : (![0, 0] : Fin 2 → Nat) = fun _ => 0 := funext fun a => by fin_cases a <;> rfl

/-- At a later tile the first accumulator, holding `xo1`, is left at `xo1` plus the tile's column sums. -/
theorem out_B_1 (c : Dev nD) (i : grid1.Coords) (a1 : Memref sig .tc .vmem S8000x96 .f32) (h1 : a1.IsWhole)
    (a2 : Memref sig .tc .vmem S1x96 .f32) (h2 : a2.IsWhole) (a3 : Memref sig .tc .vmem S1x96 .f32) (h3 : a3.IsWhole)
    (hc : ¬cond1_0 i) (x : Vec F S8000x96 .f32) (xo1 xo2 : Vec F S1x96 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz2]
  simp only [View.readAt_eq_ld, h1.read_unread, h2.read_unread, View.ld_unit_zero (S := S8000x96) hz2,
    View.ld_unit_zero (S := S1x96) hz2]

/-- At a later tile the second accumulator, holding `xo2`, is left at `xo2` plus the column sums of the tile's
    squares. -/
theorem out_B_2 (c : Dev nD) (i : grid1.Coords) (a1 : Memref sig .tc .vmem S8000x96 .f32) (h1 : a1.IsWhole)
    (a2 : Memref sig .tc .vmem S1x96 .f32) (h2 : a2.IsWhole) (a3 : Memref sig .tc .vmem S1x96 .f32) (h3 : a3.IsWhole)
    (hc : ¬cond1_0 i) (x : Vec F S8000x96 .f32) (xo1 xo2 : Vec F S1x96 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz2]
  simp only [View.readAt_eq_ld, h1.read_unread, h3.read_unread, View.ld_unit_zero (S := S8000x96) hz2,
    View.ld_unit_zero (S := S1x96) hz2]

/-- At the first tile the first accumulator is set to zero and then takes in the tile's column sums. -/
theorem out_A_1 (c : Dev nD) (i : grid1.Coords) (a1 : Memref sig .tc .vmem S8000x96 .f32) (h1 : a1.IsWhole)
    (a2 : Memref sig .tc .vmem S1x96 .f32) (h2 : a2.IsWhole) (a3 : Memref sig .tc .vmem S1x96 .f32) (h3 : a3.IsWhole)
    (hc : cond1_0 i) (x : Vec F S8000x96 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x96) hz2, View.readCov_unit_zero (S := S1x96) _ hz2]
  simp only [View.readAt_eq_ld, h1.read_unread, View.ld_unit_zero (S := S8000x96) hz2,
    View.ld_unit_zero (S := S1x96) hz2]

/-- At the first tile the second accumulator is set to zero and then takes in the column sums of the tile's
    squares. -/
theorem out_A_2 (c : Dev nD) (i : grid1.Coords) (a1 : Memref sig .tc .vmem S8000x96 .f32) (h1 : a1.IsWhole)
    (a2 : Memref sig .tc .vmem S1x96 .f32) (h2 : a2.IsWhole) (a3 : Memref sig .tc .vmem S1x96 .f32) (h3 : a3.IsWhole)
    (hc : cond1_0 i) (x : Vec F S8000x96 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x96) hz2, View.readCov_unit_zero (S := S1x96) _ hz2]
  simp only [View.readAt_eq_ld, h1.read_unread, View.ld_unit_zero (S := S8000x96) hz2,
    View.ld_unit_zero (S := S1x96) hz2]

end Pieces

section Tiles

variable {F : FTy → Type} [FloatOps F]
variable (V : (c : Dev nD) → (b : Ref sig .tc) → Buf (Elt F) ((c : Thread nD τ).loc b))

/-- The 50 tiles of 8000 rows make up the 400000 rows. -/
theorem tiles_rows : cfg1.N * 8000 = 400000 := by rw [show cfg1.N = 50 from N_1]

/-- The last tile. -/
abbrev tLast : Fin cfg1.N := ⟨49, by rw [show cfg1.N = 50 from N_1]; decide⟩

/-- Tile `t` starts at row block `t` and spans all the columns. -/
theorem tile_index : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Row `p`, column `e` of tile `t` is row `8000 t + p`, column `e` of the array. -/
theorem tile_apply (c : Dev nD) (t : Fin cfg1.N) (p : Fin 8000) (e : Fin 96) :
    (iblk1 V c 0 t : Vec F S8000x96 .f32) (ix2 p e)
      = (V c main_v17 : Vec F S400000x96 .f32) (ix2 (TileSum.idx tiles_rows t p) e) := by
  unfold iblk1
  rw [View.read_apply]
  show V c main_v17 _ = V c main_v17 _
  congr 1
  funext a
  apply Fin.ext
  match a with
  | ⟨0, _⟩ => show win1_0.index t 0 * 8000 + 1 * p.val = t.val * 8000 + p.val; rw [(tile_index t).1]; omega
  | ⟨1, _⟩ => show win1_0.index t 1 * 96 + 1 * e.val = e.val; rw [(tile_index t).2]; omega

end Tiles

section Values

/-- The value the accumulators are reset to is zero. -/
theorem pay1_apply (j : S1x96.Idx) : k1_pay1 (F := Ideal) j = 0 := by
  unfold k1_pay1
  exact Ideal.ofBits_zero_f32

theorem pay2_apply (j : S1x96.Idx) : k1_pay2 (F := Ideal) j = 0 := by
  unfold k1_pay2
  exact Ideal.ofBits_zero_f32

/-- One step of the first accumulator, read at column `e`: what it held plus the sum of the tile's column `e`. -/
theorem pay4_apply (x : Vec Ideal S8000x96 .f32) (xo : Vec Ideal S1x96 .f32) (e : Fin 96) :
    k1_pay4 (F := Ideal) x xo (ix2 0 e) = xo (ix2 0 e) + ∑ p : Fin 8000, x (ix2 p e) := by
  unfold k1_pay4 k1_pay3
  refine (addf_apply _ _ _).trans ?_
  refine congrArg₂ (· + ·) ?_ ?_
  · exact congrFun (shapeCast_self xo _) _
  · refine (shapeCast_a_1a_apply _ _ 0 e).trans ?_
    refine (Cert.LibAxisSums.multiReduction_add_firstAxis_apply _ _ _ _ _ e).trans ?_
    exact Finset.sum_congr rfl fun p _ => congrFun (shapeCast_self x _) _

/-- One step of the second accumulator, read at column `e`: what it held plus the sum of the squares of the tile's
    column `e`. -/
theorem pay5_apply (x : Vec Ideal S8000x96 .f32) (xo : Vec Ideal S1x96 .f32) (e : Fin 96) :
    k1_pay5 (F := Ideal) x xo (ix2 0 e) = xo (ix2 0 e) + ∑ p : Fin 8000, x (ix2 p e) * x (ix2 p e) := by
  unfold k1_pay5 k1_pay3
  refine (addf_apply _ _ _).trans ?_
  refine congrArg₂ (· + ·) ?_ ?_
  · exact congrFun (shapeCast_self xo _) _
  · refine (shapeCast_a_1a_apply _ _ 0 e).trans ?_
    refine (Cert.LibAxisSums.multiReduction_add_firstAxis_apply _ _ _ _ _ e).trans ?_
    refine Finset.sum_congr rfl fun p _ => ?_
    refine (mulf_apply _ _ _).trans ?_
    exact congrArg₂ (· * ·) (congrFun (shapeCast_self x _) _) (congrFun (shapeCast_self x _) _)

end Values

section Accumulation

variable (V : (c : Dev nD) → (b : Ref sig .tc) → Buf (Elt Ideal) ((c : Thread nD τ).loc b))

/-- The [400000, 96] array the region reads, as a function of its indices. -/
abbrev arr (c : Dev nD) : Vec Ideal S400000x96 .f32 := V c main_v17

/-- The sum of column `e` over the rows of tile `t`. -/
def tileSum (c : Dev nD) (e : Fin 96) (t : Fin cfg1.N) : Ideal .f32 :=
  ∑ p : Fin 8000, arr V c (ix2 (TileSum.idx tiles_rows t p) e)

/-- The sum of the squares of column `e` over the rows of tile `t`. -/
def tileSumSq (c : Dev nD) (e : Fin 96) (t : Fin cfg1.N) : Ideal .f32 :=
  ∑ p : Fin 8000, arr V c (ix2 (TileSum.idx tiles_rows t p) e) * arr V c (ix2 (TileSum.idx tiles_rows t p) e)

/-- After the first tile the accumulators hold that tile's column sums: zero plus them. -/
theorem acc_first (c : Dev nD) (e : Fin 96) (h : 0 < cfg1.N) :
    (outsAt1 V c 0 h).1 (ix2 0 e) = tileSum V c e ⟨0, h⟩
    ∧ (outsAt1 V c 0 h).2 (ix2 0 e) = tileSumSq V c e ⟨0, h⟩ := by
  have e0 : outsAt1 V c 0 h = _ := outsAt1_A V c ⟨0, h⟩ (Nat.zero_mod _)
  rw [e0]
  dsimp only
  constructor
  · refine (congrFun (out_A_1 (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr (Nat.zero_mod _)) (iblk1 V c 0 ⟨0, h⟩)) (ix2 0 e)).trans ?_
    refine (pay4_apply (iblk1 V c 0 ⟨0, h⟩) (k1_pay1 (F := Ideal)) e).trans ?_
    rw [pay1_apply, zero_add]
    exact Finset.sum_congr rfl fun p _ => tile_apply V c ⟨0, h⟩ p e
  · refine (congrFun (out_A_2 (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr (Nat.zero_mod _)) (iblk1 V c 0 ⟨0, h⟩)) (ix2 0 e)).trans ?_
    refine (pay5_apply (iblk1 V c 0 ⟨0, h⟩) (k1_pay2 (F := Ideal)) e).trans ?_
    rw [pay2_apply, zero_add]
    exact Finset.sum_congr rfl fun p _ =>
      congrArg₂ (· * ·) (tile_apply V c ⟨0, h⟩ p e) (tile_apply V c ⟨0, h⟩ p e)

/-- After tile `n` the first accumulator holds, in column `e`, the total of the column sums of the tiles up to `n`,
    and the second the total of their sums of squares: by induction on the tile. -/
theorem acc_eq (c : Dev nD) (e : Fin 96) : ∀ (n : ℕ) (h : n < cfg1.N),
    (outsAt1 V c n h).1 (ix2 0 e) = RunningTotal.upTo (tileSum V c e) n
    ∧ (outsAt1 V c n h).2 (ix2 0 e) = RunningTotal.upTo (tileSumSq V c e) n
  | 0, h => by
    rw [RunningTotal.upTo_zero _ h, RunningTotal.upTo_zero _ h]
    exact acc_first V c e h
  | n + 1, h => by
    have hN : cfg1.N = 50 := N_1
    have hB : ¬(⟨n + 1, h⟩ : Fin cfg1.N).val % 50 = 0 := by dsimp only; omega
    obtain ⟨ih1, ih2⟩ := acc_eq c e n (Nat.lt_of_succ_lt h)
    have eB : outsAt1 V c (n + 1) h = _ := outsAt1_B V c ⟨n + 1, h⟩ hB
    rw [eB]
    dsimp only
    rw [RunningTotal.upTo_succ _ n h, RunningTotal.upTo_succ _ n h]
    constructor
    · refine (congrFun (out_B_1 (F := Ideal) c (grid1.coords ⟨n + 1, h⟩) (ms1_0 ⟨n + 1, h⟩) (hs1_0 ⟨n + 1, h⟩)
        (ms1_1 ⟨n + 1, h⟩) (hs1_1 ⟨n + 1, h⟩) (ms1_2 ⟨n + 1, h⟩) (hs1_2 ⟨n + 1, h⟩)
        (fun h' => hB ((hcond1_0 ⟨n + 1, h⟩).mp h')) (iblk1 V c 0 ⟨n + 1, h⟩)
        (outsAt1 V c n (Nat.lt_of_succ_lt h)).1 (outsAt1 V c n (Nat.lt_of_succ_lt h)).2) (ix2 0 e)).trans ?_
      refine (pay4_apply (iblk1 V c 0 ⟨n + 1, h⟩) (outsAt1 V c n (Nat.lt_of_succ_lt h)).1 e).trans ?_
      refine congrArg₂ (· + ·) ih1 ?_
      exact Finset.sum_congr rfl fun p _ => tile_apply V c ⟨n + 1, h⟩ p e
    · refine (congrFun (out_B_2 (F := Ideal) c (grid1.coords ⟨n + 1, h⟩) (ms1_0 ⟨n + 1, h⟩) (hs1_0 ⟨n + 1, h⟩)
        (ms1_1 ⟨n + 1, h⟩) (hs1_1 ⟨n + 1, h⟩) (ms1_2 ⟨n + 1, h⟩) (hs1_2 ⟨n + 1, h⟩)
        (fun h' => hB ((hcond1_0 ⟨n + 1, h⟩).mp h')) (iblk1 V c 0 ⟨n + 1, h⟩)
        (outsAt1 V c n (Nat.lt_of_succ_lt h)).1 (outsAt1 V c n (Nat.lt_of_succ_lt h)).2) (ix2 0 e)).trans ?_
      refine (pay5_apply (iblk1 V c 0 ⟨n + 1, h⟩) (outsAt1 V c n (Nat.lt_of_succ_lt h)).2 e).trans ?_
      refine congrArg₂ (· + ·) ih2 ?_
      exact Finset.sum_congr rfl fun p _ =>
        congrArg₂ (· * ·) (tile_apply V c ⟨n + 1, h⟩ p e) (tile_apply V c ⟨n + 1, h⟩ p e)

end Accumulation

section WriteBack

variable {F : FTy → Type} [FloatOps F]
variable (V : (c : Dev nD) → (b : Ref sig .tc) → Buf (Elt F) ((c : Thread nD τ).loc b))

/-- What the first accumulator holds after the last tile, as contents of its [1, 96] array. -/
abbrev last1 (c : Dev nD) : Buf (Elt F) ((c : Thread nD τ).loc main_v18_0) := (outsAt1 V c tLast.val tLast.isLt).1
/-- What the second accumulator holds after the last tile, as contents of its [1, 96] array. -/
abbrev last2 (c : Dev nD) : Buf (Elt F) ((c : Thread nD τ).loc main_v18_1) := (outsAt1 V c tLast.val tLast.isLt).2

/-- The first accumulator is written back once, after the last tile, and its block is its whole array. -/
theorem flushed1_eq (c : Dev nD) (t : Fin cfg1.N) (hf : (cfg1.win 1).flush t = true) :
    (dat1 V c).flushed 1 t = ((cfg1.win 1).blk t).view.read (Elt F) (last1 V c) := by
  have hN : cfg1.N = 50 := N_1
  have h49 : t.val = 49 := by have := (flush1_1 t).mp hf; have := t.isLt; omega
  obtain rfl : t = tLast := Fin.ext h49
  show (cfg1.win 1).cut (grid1.coords tLast) ((dat1 V c).after 1 tLast) = _
  rw [after1_1]
  have hz' : (fun a => win1_1.index tLast a * main_v18_0.ty.shape.size a) = fun _ => 0 :=
    funext fun a => by fin_cases a <;> decide
  exact (Memref.read_access_unit_zero (Elt F) main_v18_0 hz' (fun a => by rw [congrFun hz' a]; simp) (last1 V c)).symm

/-- The second accumulator likewise. -/
theorem flushed2_eq (c : Dev nD) (t : Fin cfg1.N) (hf : (cfg1.win 2).flush t = true) :
    (dat1 V c).flushed 2 t = ((cfg1.win 2).blk t).view.read (Elt F) (last2 V c) := by
  have hN : cfg1.N = 50 := N_1
  have h49 : t.val = 49 := by have := (flush1_2 t).mp hf; have := t.isLt; omega
  obtain rfl : t = tLast := Fin.ext h49
  show (cfg1.win 2).cut (grid1.coords tLast) ((dat1 V c).after 2 tLast) = _
  rw [after1_2]
  have hz' : (fun a => win1_2.index tLast a * main_v18_1.ty.shape.size a) = fun _ => 0 :=
    funext fun a => by fin_cases a <;> decide
  exact (Memref.read_access_unit_zero (Elt F) main_v18_1 hz' (fun a => by rw [congrFun hz' a]; simp) (last2 V c)).symm

/-- So the first [1, 96] array ends holding what the first accumulator held after the last tile. -/
theorem final1 (c : Dev nD) : (dat1 V c).arrAt 1 cfg1.N = last1 V c :=
  (dat1 V c).arrAt_eq_of_cover 1 (last1 V c) (flushed1_eq V c) fun i =>
    ⟨tLast, (flush1_1 tLast).mpr rfl, by
      show i ∈ ((View.whole main_v18_0).slice (win1_1.rect tLast)).set
      rw [View.set_slice_whole, Rect.mem_set_unit]
      intro a
      have h0 : (i 0 : Nat) < 1 := (i 0).isLt
      have h1 : (i 1 : Nat) < 96 := (i 1).isLt
      match a with
      | ⟨0, _⟩ => show win1_1.index tLast 0 * win1_1.size 0 ≤ (i 0 : Nat) ∧ (i 0 : Nat) < win1_1.index tLast 0 * win1_1.size 0 + win1_1.xsize (grid1.coords tLast) 0
                  rw [show win1_1.index tLast 0 * win1_1.size 0 = 0 from by decide +kernel, show win1_1.xsize (grid1.coords tLast) 0 = 1 from by decide +kernel]; omega
      | ⟨1, _⟩ => show win1_1.index tLast 1 * win1_1.size 1 ≤ (i 1 : Nat) ∧ (i 1 : Nat) < win1_1.index tLast 1 * win1_1.size 1 + win1_1.xsize (grid1.coords tLast) 1
                  rw [show win1_1.index tLast 1 * win1_1.size 1 = 0 from by decide +kernel, show win1_1.xsize (grid1.coords tLast) 1 = 96 from by decide +kernel]; omega⟩

/-- And the second [1, 96] array what the second accumulator held. -/
theorem final2 (c : Dev nD) : (dat1 V c).arrAt 2 cfg1.N = last2 V c :=
  (dat1 V c).arrAt_eq_of_cover 2 (last2 V c) (flushed2_eq V c) fun i =>
    ⟨tLast, (flush1_2 tLast).mpr rfl, by
      show i ∈ ((View.whole main_v18_1).slice (win1_2.rect tLast)).set
      rw [View.set_slice_whole, Rect.mem_set_unit]
      intro a
      have h0 : (i 0 : Nat) < 1 := (i 0).isLt
      have h1 : (i 1 : Nat) < 96 := (i 1).isLt
      match a with
      | ⟨0, _⟩ => show win1_2.index tLast 0 * win1_2.size 0 ≤ (i 0 : Nat) ∧ (i 0 : Nat) < win1_2.index tLast 0 * win1_2.size 0 + win1_2.xsize (grid1.coords tLast) 0
                  rw [show win1_2.index tLast 0 * win1_2.size 0 = 0 from by decide +kernel, show win1_2.xsize (grid1.coords tLast) 0 = 1 from by decide +kernel]; omega
      | ⟨1, _⟩ => show win1_2.index tLast 1 * win1_2.size 1 ≤ (i 1 : Nat) ∧ (i 1 : Nat) < win1_2.index tLast 1 * win1_2.size 1 + win1_2.xsize (grid1.coords tLast) 1
                  rw [show win1_2.index tLast 1 * win1_2.size 1 = 0 from by decide +kernel, show win1_2.xsize (grid1.coords tLast) 1 = 96 from by decide +kernel]; omega⟩

end WriteBack

section Result

variable (V : (c : Dev nD) → (b : Ref sig .tc) → Buf (Elt Ideal) ((c : Thread nD τ).loc b))

/-- After the region the first [1, 96] array holds, in column `e`, the sum of column `e` of the [400000, 96] array
    over all its rows: the 50 tiles' column sums added up, which over the extended reals is the one sum. -/
theorem colsum_apply (c : Dev nD) (e : Fin 96) :
    ((dat1 (F := Ideal) V c).arrAt 1 cfg1.N : Vec Ideal S1x96 .f32) (ix2 0 e)
      = ∑ r : Fin 400000, arr V c (ix2 r e) := by
  rw [final1]
  refine ((acc_eq V c e 49 tLast.isLt).1).trans ?_
  rw [RunningTotal.upTo_last _ 49 (by rw [show cfg1.N = 50 from N_1])]
  exact (TileSum.sum_axis tiles_rows (fun r => arr V c (ix2 r e))).symm

/-- And the second holds, in column `e`, the sum of the squares of column `e` over all the rows. -/
theorem colsumsq_apply (c : Dev nD) (e : Fin 96) :
    ((dat1 (F := Ideal) V c).arrAt 2 cfg1.N : Vec Ideal S1x96 .f32) (ix2 0 e)
      = ∑ r : Fin 400000, arr V c (ix2 r e) * arr V c (ix2 r e) := by
  rw [final2]
  refine ((acc_eq V c e 49 tLast.isLt).2).trans ?_
  rw [RunningTotal.upTo_last _ 49 (by rw [show cfg1.N = 50 from N_1])]
  exact (TileSum.sum_axis tiles_rows (fun r => arr V c (ix2 r e) * arr V c (ix2 r e))).symm

end Result

end Cert.KernelIdeal.KVal

end
-- ==== Proof.KRegion2.lean ====
/-
  The third region, normalisation and rectification, as one function of its five input arrays.

  The grid has 50 points; point t takes rows 8000·t … 8000·t + 7999 of the [400000, 96] input and the four [1, 96]
  rows (mean, variance, scale, shift) whole, and stores max(((x − mean) · rsqrt(variance + ε)) · scale + shift, 0) into the
  same rows of the result, the four rows read along the columns. Every point writes its block back and the 50 blocks tile
  the result, so after the region the result at (r, e) is that expression of the input at (r, e) and the rows at (0, e),
  whatever the arrays held when the region was entered.
-/
import proofs.«110483_j76673756168768_1_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.KVal

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The arrays behind the six windows -/

theorem arr2_0 : Pipeline.arrRef spec2 0 = main_v17 := rfl
theorem arr2_1 : Pipeline.arrRef spec2 1 = main_v27 := rfl
theorem arr2_2 : Pipeline.arrRef spec2 2 = main_v28 := rfl
theorem arr2_3 : Pipeline.arrRef spec2 3 = main_v29 := rfl
theorem arr2_4 : Pipeline.arrRef spec2 4 = main_v30 := rfl
theorem arr2_5 : Pipeline.arrRef spec2 5 = main_v31 := rfl

/-! ## The whole-array function -/

/-- One normalised, rectified entry: x the input entry, μ, v, g, h the four row entries of its column. -/
def bnOf (x μ v g h : Ideal .f32) : Ideal .f32 :=
  max (((x - μ) * Ideal.rsqrt (v + Ideal.ofBits .f32 0x3727C5AC#32)) * g + h) (Ideal.ofBits .f32 0x00000000#32)

/-- The region's result at (r, e). -/
def bnAt (a : S400000x96.Idx → Ideal .f32) (mu va ga be : S1x96.Idx → Ideal .f32) (r : Fin 400000) (e : Fin 96) : Ideal .f32 :=
  bnOf (a (ix2 r e)) (mu (ix2 (0 : Fin 1) e)) (va (ix2 (0 : Fin 1) e)) (ga (ix2 (0 : Fin 1) e)) (be (ix2 (0 : Fin 1) e))

theorem bnAt_def (a : S400000x96.Idx → Ideal .f32) (mu va ga be : S1x96.Idx → Ideal .f32) (r : Fin 400000) (e : Fin 96) :
    bnAt a mu va ga be r e
      = max (((a (ix2 r e) - mu (ix2 (0 : Fin 1) e)) * Ideal.rsqrt (va (ix2 (0 : Fin 1) e) + Ideal.ofBits .f32 0x3727C5AC#32))
          * ga (ix2 (0 : Fin 1) e) + be (ix2 (0 : Fin 1) e)) (Ideal.ofBits .f32 0x00000000#32) := rfl

/-- The region's result as an array. -/
def bnArr (a : S400000x96.Idx → Ideal .f32) (mu va ga be : S1x96.Idx → Ideal .f32) : S400000x96.Idx → Ideal .f32 :=
  fun i => bnAt a mu va ga be (i 0) (i 1)

/-! ## One block's result at an index -/

/-- Entry (p, e) of the block the body stores: the four rows are read at column e, the input block at (p, e). -/
theorem bn_pay_apply (x0 : Vec Ideal S8000x96 .f32) (x1 x2 x3 x4 : Vec Ideal S1x96 .f32) (p : Fin 8000) (e : Fin 96) :
    Gen.k2_pay1 (F := Ideal) x0 x1 x2 x3 x4 (ix2 p e)
      = bnOf (x0 (ix2 p e)) (x1 (ix2 (0 : Fin 1) e)) (x2 (ix2 (0 : Fin 1) e)) (x3 (ix2 (0 : Fin 1) e)) (x4 (ix2 (0 : Fin 1) e)) := by
  unfold Gen.k2_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- A block's result is the region's result where the block sits: if the input block is rows q, q + 1, … of the input and
    the four row blocks are the four rows, the stored block at (p, e) is the region's result at (q + p, e). -/
theorem bn_pay_block (x0 : Vec Ideal S8000x96 .f32) (x1 x2 x3 x4 : Vec Ideal S1x96 .f32)
    (a : S400000x96.Idx → Ideal .f32) (mu va ga be : S1x96.Idx → Ideal .f32) (j : S8000x96.Idx) (i : S400000x96.Idx)
    (h0 : x0 j = a i)
    (h1 : ∀ e : Fin 96, x1 (ix2 (0 : Fin 1) e) = mu (ix2 (0 : Fin 1) e))
    (h2 : ∀ e : Fin 96, x2 (ix2 (0 : Fin 1) e) = va (ix2 (0 : Fin 1) e))
    (h3 : ∀ e : Fin 96, x3 (ix2 (0 : Fin 1) e) = ga (ix2 (0 : Fin 1) e))
    (h4 : ∀ e : Fin 96, x4 (ix2 (0 : Fin 1) e) = be (ix2 (0 : Fin 1) e))
    (hi1 : (i 1).val = (j 1).val) :
    Gen.k2_pay1 (F := Ideal) x0 x1 x2 x3 x4 j = bnArr a mu va ga be i := by
  obtain ⟨p, d, rfl⟩ : ∃ (p : Fin 8000) (d : Fin 96), j = ix2 p d := ⟨j 0, j 1, eq_ix2 j⟩
  obtain ⟨r, e, rfl⟩ : ∃ (r : Fin 400000) (e : Fin 96), i = ix2 r e := ⟨i 0, i 1, eq_ix2 i⟩
  rw [bn_pay_apply]
  show _ = bnOf (a (ix2 r e)) (mu (ix2 (0 : Fin 1) e)) (va (ix2 (0 : Fin 1) e)) (ga (ix2 (0 : Fin 1) e)) (be (ix2 (0 : Fin 1) e))
  have ed : d = e := Fin.ext hi1.symm
  subst ed
  rw [h0, h1, h2, h3, h4]

/-! ## The grid -/

theorem zero2 : (![0, 0] : Fin 2 → Nat) = fun _ => 0 := funext fun a => by fin_cases a <;> rfl

/-- Point t of the 50-point grid indexes the input and result blocks by t on the rows; the four row windows stay at
    their one block. -/
theorem grid2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The input block at point t is rows 8000·t … of the input array. -/
theorem xblk_apply (c : Dev nD) (t : Fin cfg2.N) (x : S8000x96.Idx) (i : S400000x96.Idx)
    (h0 : (i 0).val = t.val * 8000 + (x 0).val) (h1 : (i 1).val = (x 1).val) :
    (iblk2 V c 0 t : Vec Ideal S8000x96 .f32) x = (V c main_v17 : S400000x96.Idx → Ideal .f32) i := by
  obtain ⟨e0, e1, -⟩ := grid2_idx t
  unfold iblk2
  rw [View.read_apply]
  show V c main_v17 _ = V c main_v17 _
  congr 1
  funext a
  apply Fin.ext
  match a with
  | ⟨0, _⟩ => show win2_0.index t (0 : Fin 2) * 8000 + 1 * (x 0).val = (i 0).val; omega
  | ⟨1, _⟩ => show win2_0.index t (1 : Fin 2) * 96 + 1 * (x 1).val = (i 1).val; omega

/-- Each row window's block at any point is its [1, 96] array. -/
theorem row1_apply (c : Dev nD) (t : Fin cfg2.N) (x : S1x96.Idx) :
    (iblk2 V c 1 t : Vec Ideal S1x96 .f32) x = (V c main_v27 : S1x96.Idx → Ideal .f32) x := by
  obtain ⟨-, -, e0, e1, -⟩ := grid2_idx t
  unfold iblk2
  rw [View.read_apply]
  show V c main_v27 _ = V c main_v27 _
  congr 1
  funext a
  apply Fin.ext
  match a with
  | ⟨0, _⟩ => show win2_1.index t (0 : Fin 2) * 1 + 1 * (x 0).val = (x 0).val; omega
  | ⟨1, _⟩ => show win2_1.index t (1 : Fin 2) * 96 + 1 * (x 1).val = (x 1).val; omega

theorem row2_apply (c : Dev nD) (t : Fin cfg2.N) (x : S1x96.Idx) :
    (iblk2 V c 2 t : Vec Ideal S1x96 .f32) x = (V c main_v28 : S1x96.Idx → Ideal .f32) x := by
  obtain ⟨-, -, -, -, e0, e1, -⟩ := grid2_idx t
  unfold iblk2
  rw [View.read_apply]
  show V c main_v28 _ = V c main_v28 _
  congr 1
  funext a
  apply Fin.ext
  match a with
  | ⟨0, _⟩ => show win2_2.index t (0 : Fin 2) * 1 + 1 * (x 0).val = (x 0).val; omega
  | ⟨1, _⟩ => show win2_2.index t (1 : Fin 2) * 96 + 1 * (x 1).val = (x 1).val; omega

theorem row3_apply (c : Dev nD) (t : Fin cfg2.N) (x : S1x96.Idx) :
    (iblk2 V c 3 t : Vec Ideal S1x96 .f32) x = (V c main_v29 : S1x96.Idx → Ideal .f32) x := by
  obtain ⟨-, -, -, -, -, -, e0, e1, -⟩ := grid2_idx t
  unfold iblk2
  rw [View.read_apply]
  show V c main_v29 _ = V c main_v29 _
  congr 1
  funext a
  apply Fin.ext
  match a with
  | ⟨0, _⟩ => show win2_3.index t (0 : Fin 2) * 1 + 1 * (x 0).val = (x 0).val; omega
  | ⟨1, _⟩ => show win2_3.index t (1 : Fin 2) * 96 + 1 * (x 1).val = (x 1).val; omega

theorem row4_apply (c : Dev nD) (t : Fin cfg2.N) (x : S1x96.Idx) :
    (iblk2 V c 4 t : Vec Ideal S1x96 .f32) x = (V c main_v30 : S1x96.Idx → Ideal .f32) x := by
  obtain ⟨-, -, -, -, -, -, -, -, e0, e1, -⟩ := grid2_idx t
  unfold iblk2
  rw [View.read_apply]
  show V c main_v30 _ = V c main_v30 _
  congr 1
  funext a
  apply Fin.ext
  match a with
  | ⟨0, _⟩ => show win2_4.index t (0 : Fin 2) * 1 + 1 * (x 0).val = (x 0).val; omega
  | ⟨1, _⟩ => show win2_4.index t (1 : Fin 2) * 96 + 1 * (x 1).val = (x 1).val; omega

/-! ## What a point writes back, the cover, and the array after the region -/

/-- What point t writes back is block t of the region's result of the five arrays as the region finds them. -/
theorem bn_flushed_eq (c : Dev nD) (t : Fin cfg2.N) :
    (Gen.dat2 (F := Ideal) V c).flushed 5 t
      = ((cfg2.win 5).blk t).view.read (Elt Ideal)
          (bnArr (V c main_v17) (V c main_v27) (V c main_v28) (V c main_v29) (V c main_v30)) := by
  show (cfg2.win 5).cut (grid2.coords t) ((dat2 V c).after 5 t) = _
  rw [after2_5]
  unfold out2_5
  rw [View.canon_unit_zero zero2]
  simp only [View.ld_unit_zero (S := S8000x96) zero2, View.ld_unit_zero (S := S1x96) zero2]
  obtain ⟨-, -, -, -, -, -, -, -, -, -, e0, e1⟩ := grid2_idx t
  funext j
  show Gen.k2_pay1 (F := Ideal) (iblk2 V c 0 t) (iblk2 V c 1 t) (iblk2 V c 2 t) (iblk2 V c 3 t) (iblk2 V c 4 t) j
    = bnArr (V c main_v17) (V c main_v27) (V c main_v28) (V c main_v29) (V c main_v30) (((cfg2.win 5).blk t).view.emb j)
  have i0 : ((((cfg2.win 5).blk t).view.emb j) 0).val = t.val * 8000 + (j 0).val := by
    show win2_5.index t (0 : Fin 2) * 8000 + 1 * (j 0).val = _; omega
  have i1 : ((((cfg2.win 5).blk t).view.emb j) 1).val = (j 1).val := by
    show win2_5.index t (1 : Fin 2) * 96 + 1 * (j 1).val = _; omega
  exact bn_pay_block (iblk2 V c 0 t) (iblk2 V c 1 t) (iblk2 V c 2 t) (iblk2 V c 3 t) (iblk2 V c 4 t)
    (V c main_v17) (V c main_v27) (V c main_v28) (V c main_v29) (V c main_v30) j _
    (xblk_apply V c t j _ i0 i1) (fun e => row1_apply V c t _) (fun e => row2_apply V c t _)
    (fun e => row3_apply V c t _) (fun e => row4_apply V c t _) i1

/-- An index of the result is in point t's block iff each coordinate is in the block's range on its axis. -/
theorem bn_mem_blk (t : Fin cfg2.N) (i : S400000x96.Idx) :
    i ∈ ((cfg2.win 5).blk t).view.set ↔ ∀ a : Fin 2, win2_5.index t a * S8000x96.size a ≤ (i a).val
      ∧ (i a).val < win2_5.index t a * S8000x96.size a + S8000x96.size a := by
  show i ∈ ((View.whole main_v31).slice (win2_5.rect t)).set ↔ _
  rw [View.set_slice_whole, Rect.mem_set_unit]
  exact Iff.rfl

/-- Row r lies in the block of point r / 8000, which writes it back: the blocks tile the result. -/
theorem bn_covered (i : S400000x96.Idx) :
    ∃ t : Fin cfg2.N, (cfg2.win 5).flush t = true ∧ i ∈ ((cfg2.win 5).blk t).view.set := by
  have h0 : (i 0).val < 400000 := (i 0).isLt
  have h1 : (i 1).val < 96 := (i 1).isLt
  have hN : cfg2.N = 50 := N_2
  obtain ⟨t, ht⟩ : ∃ t : Fin cfg2.N, t.val = (i 0).val / 8000 :=
    ⟨⟨(i 0).val / 8000, by rw [hN]; omega⟩, rfl⟩
  obtain ⟨-, -, -, -, -, -, -, -, -, -, e0, e1⟩ := grid2_idx t
  refine ⟨t, flush2_5 t, ?_⟩
  rw [bn_mem_blk]
  intro a
  match a with
  | ⟨0, _⟩ =>
    show win2_5.index t (0 : Fin 2) * 8000 ≤ (i 0).val ∧ (i 0).val < win2_5.index t (0 : Fin 2) * 8000 + 8000
    omega
  | ⟨1, _⟩ =>
    show win2_5.index t (1 : Fin 2) * 96 ≤ (i 1).val ∧ (i 1).val < win2_5.index t (1 : Fin 2) * 96 + 96
    omega

/-- The result array after the region is the region's function of the five arrays it was entered with. -/
theorem bn_eq (c : Dev nD) :
    (Gen.dat2 (F := Ideal) V c).arrAt 5 cfg2.N
      = bnArr (V c main_v17) (V c main_v27) (V c main_v28) (V c main_v29) (V c main_v30) :=
  (Gen.dat2 (F := Ideal) V c).arrAt_eq_of_cover 5
    (bnArr (V c main_v17) (V c main_v27) (V c main_v28) (V c main_v29) (V c main_v30))
    (fun t _ => bn_flushed_eq V c t) bn_covered

/-- The same, entry by entry (`bnAt`, unfolded by `bnAt_def`). -/
theorem bn_apply (c : Dev nD) (r : Fin 400000) (e : Fin 96) :
    (Gen.dat2 (F := Ideal) V c).arrAt 5 cfg2.N (ix2 r e)
      = bnAt (V c main_v17) (V c main_v27) (V c main_v28) (V c main_v29) (V c main_v30) r e := by
  rw [bn_eq]
  rfl

end Cert.KernelIdeal.KVal

end
-- ==== Proof.KResult.lean ====
/-
  The idealized kernel program's result, entry by entry, as a function of the accumulated array.

  With `out` the [400000,96] array the scatter-add leaves (from the products region 0 computed), column `e`
  has the sum `S = Σ_r out[r,e]` and the sum of squares `Q = Σ_r out[r,e]²` (region 1), the mean `S / N` and the
  variance `Q / N - (S / N)²` (the host operations after it), and region 2 writes
  `max (((out[r,e] - mean) · rsqrt (var + ε)) · γ[e] + β[e], 0)`.
-/
import proofs.«110483_j76673756168768_1_alg».proof.Proof.KRun
import proofs.«110483_j76673756168768_1_alg».proof.Proof.KHost
import proofs.«110483_j76673756168768_1_alg».proof.Proof.KRows
import proofs.«110483_j76673756168768_1_alg».proof.Proof.KRegion0
import proofs.«110483_j76673756168768_1_alg».proof.Proof.KRegion1
import proofs.«110483_j76673756168768_1_alg».proof.Proof.KRegion2

set_option maxRecDepth 16384

noncomputable section

namespace Cert.KernelIdeal.KVal

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg)

/-- Column `e`'s mean as the kernel program computes it: the column sum over the count constant. -/
def kerMean (out : S400000x96.Idx → Ideal .f32) (e : Fin 96) : Ideal .f32 :=
  Ideal.div (∑ r : Fin 400000, out (ix2 r e)) (Ideal.ofBits .f32 0x48C35000#32)

/-- Column `e`'s variance as the kernel program computes it: the mean of the squares less the square of the mean. -/
def kerVar (out : S400000x96.Idx → Ideal .f32) (e : Fin 96) : Ideal .f32 :=
  Ideal.div (∑ r : Fin 400000, out (ix2 r e) * out (ix2 r e)) (Ideal.ofBits .f32 0x48C35000#32)
    - kerMean out e * kerMean out e

/-- The kernel program's normalised entry. -/
def kerAt (out : S400000x96.Idx → Ideal .f32) (a2 a3 : S96.Idx → Ideal .f32) (r : Fin 400000) (e : Fin 96) : Ideal .f32 :=
  max (((out (ix2 r e) - kerMean out e) * Ideal.rsqrt (kerVar out e + Ideal.ofBits .f32 0x3727C5AC#32)) * a2 (ix1 e)
      + a3 (ix1 e)) (Ideal.ofBits .f32 0x00000000#32)

/-- The accumulated array the run holds between regions 0 and 2. -/
def outOf (c : Dev nD) : S400000x96.Idx → Ideal .f32 :=
  scatteredK ((dat0 (V1 m ρ) c).arrAt 2 cfg0.N) (m ((c : Thread nD τ).loc main_arg5))

/-- The result buffer after the run, entry by entry. -/
theorem result_apply (c : Dev nD) (r : Fin 400000) (e : Fin 96) :
    (W6 m ρ c (Proc.devRef .tc main_v31) : S400000x96.Idx → Ideal .f32) (ix2 r e)
      = kerAt (outOf m ρ c) (m ((c : Thread nD τ).loc main_arg2)) (m ((c : Thread nD τ).loc main_arg3)) r e := by
  rw [W6_result m ρ c, bn_apply (V5 m ρ) c r e, bnAt_def]
  rw [V5_v17, V5_v27, V5_v28, V5_v29, V5_v30]
  rw [meanRow_apply, varRow_apply, asRow_apply, asRow_apply]
  rw [colsum_apply (V3 m ρ) c e, colsumsq_apply (V3 m ρ) c e]
  simp only [arr]
  rw [V3_v17 m ρ c]
  rfl

end Cert.KernelIdeal.KVal

end
-- ==== Proof.LibScatterFlat.lean ====
import Idealize.ShloMosaic.PureOps.Ideal
import Idealize.ShloMosaic.Lib.ValueIdx

/-! A scatter-add whose updates have shape `[8, 200000, 96]` and whose scatter indices have shape
    `[8, 200000, 1]` (one row index per pair `(k, m)`, the whole row of 96 entries added to that row of a
    `[400000, 96]` operand) is the scatter-add of the row-major flattened updates `[1600000, 96]` at the
    flattened indices `[1600000, 1]`: update `(k, m, d)` and update `(k * 200000 + m, d)` land at the same
    operand index, and `(k, m, d) ↦ (k * 200000 + m, d)` is a bijection of the two update index sets, so the two
    sums at each operand index are the same sum re-indexed.
    Also: a scatter-add of real data (operand and updates) is real at every index, a finite sum of reals being
    real. -/

noncomputable section

namespace Cert.LibScatterFlat

open Idealize.ShloMosaic Idealize.ShloMosaic.ValueIdx
open scoped BigOperators

/-- The operand: 400000 rows of 96. -/
abbrev S : Shape := ⟨2, ![400000, 96]⟩
/-- The flattened scatter indices and updates. -/
abbrev SiK : Shape := ⟨2, ![1600000, 1]⟩
abbrev SuK : Shape := ⟨2, ![1600000, 96]⟩
/-- The batched scatter indices and updates. -/
abbrev SiR : Shape := ⟨3, ![8, 200000, 1]⟩
abbrev SuR : Shape := ⟨3, ![8, 200000, 96]⟩

/-- The flattened scatter: update axis 1 is the window (operand axis 1), the index word names operand axis 0. -/
abbrev dK (wf : ScatterDims.WF S SiK SuK [1] [0] [0] 1) : ScatterDims S SiK SuK := ⟨[1], [0], [0], 1, wf⟩
/-- The batched scatter: update axis 2 is the window (operand axis 1), the index word names operand axis 0. -/
abbrev dR (wf : ScatterDims.WF S SiR SuR [2] [0] [0] 2) : ScatterDims S SiR SuR := ⟨[2], [0], [0], 2, wf⟩

/-- The row-major position of `(k, m)` among `8 × 200000`. -/
abbrev flat (k : Fin 8) (m : Fin 200000) : Fin 1600000 := ⟨k.val * 200000 + m.val, by omega⟩

/-- Two updates with the same window start and the same window coordinate on every operand axis land at the
    same operand index (or are both dropped). -/
theorem resultIdx?_congr {s si su si' su' : Shape} (d : ScatterDims s si su) (d' : ScatterDims s si' su') {w : Nat}
    (j : su.Idx) (j' : su'.Idx) (idx : IVec si w) (idx' : IVec si' w)
    (hs : ∀ a, d.start j idx a = d'.start j' idx' a) (hw : ∀ a, d.window j a = d'.window j' a) :
    d.resultIdx? j idx = d'.resultIdx? j' idx' := by
  unfold ScatterDims.resultIdx?
  simp only [hs, hw]

/-- The operand's axes that are not inserted: axis 1 alone. -/
theorem sKept_eq : S.kept [0] = [1] := by decide

section K
variable (wf : ScatterDims.WF S SiK SuK [1] [0] [0] 1) {w : Nat} (j : SuK.Idx) (idx : IVec SiK w)

/-- Flattened: update `(p, d)` reads its start index at scatter-indices index `(p, 0)`. -/
theorem siIdx_K (c : Fin (dK wf).scatterDimsToOperandDims.length) : (dK wf).siIdx j c = ix2 (j 0) 0 := by
  funext b
  match b with
  | ⟨0, _⟩ => rfl
  | ⟨1, _⟩ =>
    refine Fin.ext ?_
    show c.val = 0
    have := c.isLt
    simp only [List.length_singleton] at this
    omega

theorem start_K0 : (dK wf).start j idx 0 = (idx (ix2 (j 0) 0)).toInt := by
  unfold ScatterDims.start
  rw [dif_pos (List.mem_singleton.2 rfl), siIdx_K]
  rfl

theorem start_K1 : (dK wf).start j idx 1 = 0 := by
  unfold ScatterDims.start
  rw [dif_neg (fun h => absurd (List.mem_singleton.1 h) (by decide))]

theorem window_K0 : (dK wf).window j 0 = 0 := by
  unfold ScatterDims.window
  have h : (0 : Fin S.rank) ∉ (dK wf).sKept := by
    show (0 : Fin S.rank) ∉ S.kept [0]
    rw [sKept_eq]; decide
  rw [dif_neg h]

theorem window_K1 : (dK wf).window j 1 = (j 1).val := by
  unfold ScatterDims.window
  have h : (1 : Fin S.rank) ∈ (dK wf).sKept := by
    show (1 : Fin S.rank) ∈ S.kept [0]
    rw [sKept_eq]; decide
  rw [dif_pos h]
  rfl

end K

section R
variable (wf : ScatterDims.WF S SiR SuR [2] [0] [0] 2) {w : Nat} (j : SuR.Idx) (idx : IVec SiR w)

/-- Batched: update `(k, m, d)` reads its start index at scatter-indices index `(k, m, 0)`. -/
theorem siIdx_R (c : Fin (dR wf).scatterDimsToOperandDims.length) : (dR wf).siIdx j c = ix3 (j 0) (j 1) 0 := by
  funext b
  match b with
  | ⟨0, _⟩ => rfl
  | ⟨1, _⟩ => rfl
  | ⟨2, _⟩ =>
    refine Fin.ext ?_
    show c.val = 0
    have := c.isLt
    simp only [List.length_singleton] at this
    omega

theorem start_R0 : (dR wf).start j idx 0 = (idx (ix3 (j 0) (j 1) 0)).toInt := by
  unfold ScatterDims.start
  rw [dif_pos (List.mem_singleton.2 rfl), siIdx_R]
  rfl

theorem start_R1 : (dR wf).start j idx 1 = 0 := by
  unfold ScatterDims.start
  rw [dif_neg (fun h => absurd (List.mem_singleton.1 h) (by decide))]

theorem window_R0 : (dR wf).window j 0 = 0 := by
  unfold ScatterDims.window
  have h : (0 : Fin S.rank) ∉ (dR wf).sKept := by
    show (0 : Fin S.rank) ∉ S.kept [0]
    rw [sKept_eq]; decide
  rw [dif_neg h]

theorem window_R1 : (dR wf).window j 1 = (j 2).val := by
  unfold ScatterDims.window
  have h : (1 : Fin S.rank) ∈ (dR wf).sKept := by
    show (1 : Fin S.rank) ∈ S.kept [0]
    rw [sKept_eq]; decide
  rw [dif_pos h]
  rfl

end R

/-- Update `(k, m, d)` of the batched scatter and update `(k * 200000 + m, d)` of the flattened one land at the
    same operand index, their index words being the same word. -/
theorem resultIdx?_flat (wfK : ScatterDims.WF S SiK SuK [1] [0] [0] 1) (wfR : ScatterDims.WF S SiR SuR [2] [0] [0] 2)
    {w : Nat} (iK : IVec SiK w) (iR : IVec SiR w)
    (hidx : ∀ (k : Fin 8) (m : Fin 200000), iK (ix2 (flat k m) 0) = iR (ix3 k m 0))
    (k : Fin 8) (m : Fin 200000) (d : Fin 96) :
    (dK wfK).resultIdx? (ix2 (flat k m) d) iK = (dR wfR).resultIdx? (ix3 k m d) iR := by
  refine resultIdx?_congr _ _ _ _ _ _ (fun a => ?_) (fun a => ?_)
  · match a with
    | ⟨0, _⟩ =>
      exact (start_K0 wfK (ix2 (flat k m) d) iK).trans
        ((congrArg BitVec.toInt (hidx k m)).trans (start_R0 wfR (ix3 k m d) iR).symm)
    | ⟨1, _⟩ => exact (start_K1 wfK (ix2 (flat k m) d) iK).trans (start_R1 wfR (ix3 k m d) iR).symm
  · match a with
    | ⟨0, _⟩ => exact (window_K0 wfK (ix2 (flat k m) d)).trans (window_R0 wfR (ix3 k m d)).symm
    | ⟨1, _⟩ => exact (window_K1 wfK (ix2 (flat k m) d)).trans (window_R1 wfR (ix3 k m d)).symm

/-- The bijection `(k, m, d) ↦ (k * 200000 + m, d)` of the batched update indices with the flattened ones. -/
def flatEquiv : SuR.Idx ≃ SuK.Idx where
  toFun j := ix2 (flat (j 0) (j 1)) (j 2)
  invFun p := ix3 ⟨(p 0).val / 200000, by have := idx2_lt0 p; omega⟩ ⟨(p 0).val % 200000, Nat.mod_lt _ (by norm_num)⟩ (p 1)
  left_inv j := by
    funext a
    match a with
    | ⟨0, _⟩ =>
      refine Fin.ext ?_
      show ((j 0).val * 200000 + (j 1).val) / 200000 = (j 0).val
      have h1 : (j 1).val < 200000 := (j 1).isLt
      omega
    | ⟨1, _⟩ =>
      refine Fin.ext ?_
      show ((j 0).val * 200000 + (j 1).val) % 200000 = (j 1).val
      have h1 : (j 1).val < 200000 := (j 1).isLt
      omega
    | ⟨2, _⟩ => rfl
  right_inv p := by
    funext a
    match a with
    | ⟨0, _⟩ =>
      refine Fin.ext ?_
      show (p 0).val / 200000 * 200000 + (p 0).val % 200000 = (p 0).val
      omega
    | ⟨1, _⟩ => rfl

/-- **The batched scatter-add is the flattened one.** -/
theorem hostScatterAdd_flat (wfK : ScatterDims.WF S SiK SuK [1] [0] [0] 1) (wfR : ScatterDims.WF S SiR SuR [2] [0] [0] 2)
    {w : Nat} (x : S.Idx → EReal) (iK : IVec SiK w) (iR : IVec SiR w) (uK : SuK.Idx → EReal) (uR : SuR.Idx → EReal)
    (hidx : ∀ (k : Fin 8) (m : Fin 200000), iK (ix2 (flat k m) 0) = iR (ix3 k m 0))
    (hupd : ∀ (k : Fin 8) (m : Fin 200000) (d : Fin 96), uK (ix2 (flat k m) d) = uR (ix3 k m d)) :
    Ideal.hostScatterAdd (dK wfK) x iK uK = Ideal.hostScatterAdd (dR wfR) x iR uR := by
  funext i
  unfold Ideal.hostScatterAdd
  refine congrArg (x i + ·) ?_
  symm
  refine Finset.sum_equiv flatEquiv (fun j => ?_) (fun j _ => ?_)
  · simp only [Finset.mem_filter, Finset.mem_univ, true_and]
    have h := resultIdx?_flat wfK wfR iK iR hidx (j 0) (j 1) (j 2)
    have hj : (dR wfR).resultIdx? j iR = (dR wfR).resultIdx? (ix3 (j 0) (j 1) (j 2)) iR :=
      congrArg (fun t => (dR wfR).resultIdx? t iR) (eq_ix3 j)
    have e : (dR wfR).resultIdx? j iR = (dK wfK).resultIdx? (flatEquiv j) iK := hj.trans h.symm
    exact ⟨fun hh => e.symm.trans hh, fun hh => e.trans hh⟩
  · exact (congrArg uR (eq_ix3 j)).trans (hupd (j 0) (j 1) (j 2)).symm

/-- A finite sum of reals, read in the extended reals, is real. -/
theorem exists_real_sum {ι : Type*} (s : Finset ι) (f : ι → EReal) (hf : ∀ j, ∃ a : ℝ, f j = (a : EReal)) :
    ∃ a : ℝ, ∑ j ∈ s, f j = (a : EReal) := by
  classical
  induction s using Finset.induction_on with
  | empty => exact ⟨0, by simp⟩
  | insert j s hj ih =>
    obtain ⟨a, ha⟩ := ih
    obtain ⟨b, hb⟩ := hf j
    exact ⟨b + a, by rw [Finset.sum_insert hj, ha, hb, EReal.coe_add]⟩

/-- A scatter-add of real updates into a real operand is real at every index. -/
theorem hostScatterAdd_real {s si su : Shape} (d : ScatterDims s si su) {w : Nat} (x : s.Idx → EReal) (idx : IVec si w)
    (upd : su.Idx → EReal) (hx : ∀ i, ∃ a : ℝ, x i = (a : EReal)) (hu : ∀ j, ∃ a : ℝ, upd j = (a : EReal)) (i : s.Idx) :
    ∃ a : ℝ, Ideal.hostScatterAdd d x idx upd i = (a : EReal) := by
  obtain ⟨a, ha⟩ := hx i
  obtain ⟨b, hb⟩ := exists_real_sum (Finset.univ.filter (fun j => d.resultIdx? j idx = some i)) upd hu
  exact ⟨a + b, by unfold Ideal.hostScatterAdd; rw [ha, hb, EReal.coe_add]⟩

end Cert.LibScatterFlat

end
-- ==== Proof.LibWords.lean ====
import Idealize.ShloMosaic.PureOps.Ideal
import Idealize.ShloMosaic.Lib.ValueIdx

/-! Words read as extended reals. The binary32 pattern `0x48C35000` (sign `0`, exponent field `145`, fraction
    field `0x435000`) denotes `(2^23 + 0x435000) · 2^(145 - 127 - 23) = 400000`; the all-zero pattern denotes `0`.
    The 32-bit integer word `0`, converted signed to a float, is `0`. An ordered "greater than" of `x` against
    `y` with `y < x` answers the bit `1` — in particular `400000 - 0` against `0` —, and a select on the bit `1`
    is its first operand. Each is stated on scalars and, where a program meets it on a vector, read at an index. -/

noncomputable section

namespace Cert.LibWords

open Idealize.ShloMosaic Idealize.ShloMosaic.ValueIdx

/-- The pattern `0x48C35000` denotes the real `400000`. -/
theorem ofBits_400000 : Ideal.ofBits .f32 0x48C35000#32 = ((400000 : ℝ) : EReal) := by
  simp [Ideal.ofBits, Ideal.ieee, -EReal.coe_mul]; norm_num

/-- The all-zero pattern denotes `0`. -/
theorem ofBits_zero : Ideal.ofBits .f32 0x00000000#32 = 0 := by
  simp [Ideal.ofBits, Ideal.ieee]

/-- The integer word `0`, read signed, converts to `0`. -/
theorem sitofp_zero : FloatOps.sitofp (F := Ideal) .f32 (0#32) = (0 : EReal) := by
  show (((0#32 : BitVec 32).toInt : ℝ) : EReal) = 0
  simp

/-- The same through the scalar unit's conversion. -/
theorem scalar_sitofp_zero : Scalar.sitofp (F := Ideal) .f32 (0#32) = (0 : EReal) := by
  show (((0#32 : BitVec 32).toInt : ℝ) : EReal) = 0
  simp

/-- A vector of integer words converted to floats reads `0` where the word is `0`. -/
theorem sitofp_apply_zero {s : Shape} (x : IVec s 32) (i : s.Idx) (h : x i = 0#32) :
    (sitofp .f32 x : FVec Ideal s .f32) i = (0 : EReal) := by
  rw [sitofp_apply, h]; exact sitofp_zero

/-- An ordered "greater than" answers the bit `1` when its first operand is the greater. -/
theorem cmp_ogt_of_lt {x y : EReal} (h : y < x) : Ideal.cmp .ogt x y = 1#1 := by
  simp [Ideal.cmp, h]

/-- `400000 - 0 > 0`. -/
theorem cmp_ogt_400000 : Ideal.cmp .ogt (((400000 : ℝ) : EReal) - 0) 0 = 1#1 := by
  refine cmp_ogt_of_lt ?_
  rw [sub_zero]
  exact_mod_cast (by norm_num : (0 : ℝ) < 400000)

/-- The comparison of two float vectors at an index where the first is the greater is the bit `1`. -/
theorem cmpf_ogt_apply_of_lt {s : Shape} (a b : FVec Ideal s .f32) (i : s.Idx) (h : (b i : EReal) < a i) :
    cmpf .ogt a b i = 1#1 := by
  rw [cmpf_apply]; exact cmp_ogt_of_lt h

/-- A select at an index where the condition's bit is `1` reads its first operand there. -/
theorem select_apply_one {α : Type} {s : Shape} (c : IVec s 1) (a b : s.Idx → α) (i : s.Idx) (h : c i = 1#1) :
    select c a b i = a i := by
  rw [select_apply, h, select_one]

end Cert.LibWords

end
-- ==== Proof.KScatter.lean ====
/-
  The accumulation stretch of the idealized kernel program, read as the reference spells it: the flattened
  [1600000,96] product rows accumulated at the flattened wrapped target indices are the [8,200000,96] product
  rows accumulated at the [8,200000,1] wrapped target indices, and the accumulated array of real products is real.
-/
import proofs.«110483_j76673756168768_1_alg».proof.Proof.KHost
import proofs.«110483_j76673756168768_1_alg».proof.Proof.LibScatterFlat
import proofs.«110483_j76673756168768_1_alg».proof.Proof.LibWords
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.Tactic Idealize.ShloMosaic.StableHlo
open Idealize.ShloMosaic.ValueIdx
open Idealize.SL.Sem
open Cert.KernelIdeal Cert.KernelIdeal.Gen
open Cert.LibScatterFlat (flat)

/-- The target indices, a negative one wrapped by the extent 400000, as an [8,200000,1] array of one-component
    scatter indices: the flattened `wrapOutFlat` before flattening. -/
def wrapOut3 (a5 : IVec S8x200000 32) : IVec S8x200000x1 32 :=
  broadcastInDim S8x200000x1 ![0, 1] Facts₀.bcast_S8x200000_S8x200000x1_0_1
    (select (cmpi .slt a5 (broadcastInDim S8x200000 ![] Facts₀.bcast_S_S8x200000 (constantI S_ 32 0#32)))
      (addi a5 (broadcastInDim S8x200000 ![] Facts₀.bcast_S_S8x200000 (constantI S_ 32 400000#32))) a5)

/-- A word wrapped by the extent 400000 when it is negative. -/
def wrapWord (x : BitVec 32) : BitVec 32 :=
  Scalar.select (IntOp.cmpi .slt x 0#32) (IntOp.addi x 400000#32) x

/-- A broadcast scalar reads the scalar everywhere. -/
theorem bcast0_apply {α : Type} {t : Shape} (h : S_.BroadcastsInDim t (![] : Fin 0 → Fin t.rank)) (x : S_.Idx → α)
    (j : t.Idx) : broadcastInDim t ![] h x j = x ix0 :=
  broadcastInDim_apply _ h x j ix0 (fun a => a.elim0)

/-- The flattened index array at position `k * 200000 + m` is the index array at `(k, m)`. -/
theorem flatIdx_apply (a5 : IVec S8x200000 32) (k : Fin 8) (mm : Fin 200000) :
    shapeCast S1600000 a5 Facts₀.shapeCasts_S8x200000_S1600000 (ix1 (flat k mm)) = a5 (ix2 k mm) := by
  refine shapeCast_apply a5 _ _ (ix2 k mm) ?_
  rw [Shape.rowMajor_val_two, Shape.rowMajor_val_one]
  rfl

/-- The unflattened wrapped index at `(k, m, 0)` is the wrapped word at `(k, m)`. -/
theorem wrapOut3_apply (a5 : IVec S8x200000 32) (k : Fin 8) (mm : Fin 200000) :
    wrapOut3 a5 (ix3 k mm 0) = wrapWord (a5 (ix2 k mm)) := by
  unfold wrapOut3
  have hk : ∀ a : Fin S8x200000.rank, ((ix2 k mm) a).val = if S8x200000.size a = 1 then 0
      else ((ix3 k mm (0 : Fin 1)) ((![0, 1] : Fin 2 → Fin S8x200000x1.rank) a)).val := by
    intro a
    match a with
    | ⟨0, _⟩ =>
      have h : ¬ ((8 : ℕ) = 1) := by decide
      exact (if_neg h).symm
    | ⟨1, _⟩ =>
      have h : ¬ ((200000 : ℕ) = 1) := by decide
      exact (if_neg h).symm
  rw [broadcastInDim_apply (![0, 1] : Fin 2 → Fin S8x200000x1.rank) Facts₀.bcast_S8x200000_S8x200000x1_0_1 _ (ix3 k mm 0) (ix2 k mm) hk]
  show Scalar.select (IntOp.cmpi .slt (a5 (ix2 k mm)) (broadcastInDim S8x200000 ![] _ (constantI S_ 32 0#32) (ix2 k mm)))
      (IntOp.addi (a5 (ix2 k mm)) (broadcastInDim S8x200000 ![] _ (constantI S_ 32 400000#32) (ix2 k mm))) (a5 (ix2 k mm)) = _
  rw [bcast0_apply, bcast0_apply]
  rfl

/-- The flattened wrapped index at `(k * 200000 + m, 0)` is the wrapped word at `(k, m)`. -/
theorem wrapOutFlat_word (a5 : IVec S8x200000 32) (k : Fin 8) (mm : Fin 200000) :
    wrapOutFlat a5 (ix2 (flat k mm) 0) = wrapWord (a5 (ix2 k mm)) := by
  unfold wrapOutFlat
  have hk : ∀ a : Fin S1600000.rank, ((ix1 (flat k mm)) a).val = if S1600000.size a = 1 then 0
      else ((ix2 (flat k mm) (0 : Fin 1)) ((![0] : Fin 1 → Fin S1600000x1.rank) a)).val := by
    intro a
    match a with
    | ⟨0, _⟩ =>
      have h : ¬ ((1600000 : ℕ) = 1) := by decide
      exact (if_neg h).symm
  rw [broadcastInDim_apply (![0] : Fin 1 → Fin S1600000x1.rank) Facts₀.bcast_S1600000_S1600000x1_0 _ (ix2 (flat k mm) 0) (ix1 (flat k mm)) hk]
  show Scalar.select (IntOp.cmpi .slt (shapeCast S1600000 a5 _ (ix1 (flat k mm)))
        (broadcastInDim S1600000 ![] _ (constantI S_ 32 0#32) (ix1 (flat k mm))))
      (IntOp.addi (shapeCast S1600000 a5 _ (ix1 (flat k mm)))
        (broadcastInDim S1600000 ![] _ (constantI S_ 32 400000#32) (ix1 (flat k mm))))
      (shapeCast S1600000 a5 _ (ix1 (flat k mm))) = _
  rw [flatIdx_apply, bcast0_apply, bcast0_apply]
  rfl

/-- The flattened wrapped indices are the unflattened ones, position by position. -/
theorem wrapOutFlat_apply (a5 : IVec S8x200000 32) (k : Fin 8) (mm : Fin 200000) :
    wrapOutFlat a5 (ix2 (flat k mm) 0) = wrapOut3 a5 (ix3 k mm 0) :=
  (wrapOutFlat_word a5 k mm).trans (wrapOut3_apply a5 k mm).symm

/-- The flattened products at `(k * 200000 + m, d)` are the products at `(k, m, d)`. -/
theorem flatten_apply (p : FVec Ideal S8x200000x96 .f32) (k : Fin 8) (mm : Fin 200000) (d : Fin 96) :
    shapeCast S1600000x96 p Facts₀.shapeCasts_S8x200000x96_S1600000x96 (ix2 (flat k mm) d) = p (ix3 k mm d) := by
  refine shapeCast_apply p _ _ (ix3 k mm d) ?_
  rw [Shape.rowMajor_val_three, Shape.rowMajor_val_two]
  rfl

/-- The zero array the accumulation starts from. -/
abbrev zeroAcc : FVec Ideal S400000x96 .f32 :=
  broadcastInDim S400000x96 ![] Facts₀.bcast_S_S400000x96 (constant (F := Ideal) S_ .f32 0x00000000#32)

/-- Every entry of the zero array is `0`. -/
theorem zeroAcc_apply (i : S400000x96.Idx) : zeroAcc i = (0 : EReal) := by
  show broadcastInDim S400000x96 ![] Facts₀.bcast_S_S400000x96 (constant (F := Ideal) S_ .f32 0x00000000#32) i = 0
  rw [bcast0_apply, constant_apply]
  exact Cert.LibWords.ofBits_zero

/-- The accumulation as the exact scatter-add of the flattened rows. -/
theorem scatteredK_def (p : FVec Ideal S8x200000x96 .f32) (a5 : IVec S8x200000 32) :
    scatteredK p a5 = Ideal.hostScatterAdd scatter_S400000x96_S1600000x1_S1600000x96_1_0_0_1 zeroAcc (wrapOutFlat a5)
      (shapeCast S1600000x96 p Facts₀.shapeCasts_S8x200000x96_S1600000x96) := by
  unfold scatteredK Host.scatterAdd
  rw [Ideal.hostScatterAdd_def]

/-- The accumulated array is the scatter-add of the unflattened products at the unflattened wrapped indices. -/
theorem scatteredK_eq (wfR : ScatterDims.WF S400000x96 S8x200000x1 S8x200000x96 [2] [0] [0] 2)
    (p : FVec Ideal S8x200000x96 .f32) (a5 : IVec S8x200000 32) :
    scatteredK p a5 = Ideal.hostScatterAdd (Cert.LibScatterFlat.dR wfR) zeroAcc (wrapOut3 a5) p := by
  rw [scatteredK_def]
  exact Cert.LibScatterFlat.hostScatterAdd_flat Facts₀.scatter_S400000x96_S1600000x1_S1600000x96_1_0_0_1_wf wfR zeroAcc
    (wrapOutFlat a5) (wrapOut3 a5) (shapeCast S1600000x96 p Facts₀.shapeCasts_S8x200000x96_S1600000x96) p
    (wrapOutFlat_apply a5) (flatten_apply p)

/-- A record of the batched scatter's dimension numbers is the one of the flattening lemma. -/
theorem dims_eq_dR (D : ScatterDims S400000x96 S8x200000x1 S8x200000x96)
    (h1 : D.updateWindowDims = [2]) (h2 : D.insertedWindowDims = [0]) (h3 : D.scatterDimsToOperandDims = [0])
    (h4 : D.indexVectorDim = 2) : ∃ wf, D = Cert.LibScatterFlat.dR wf := by
  obtain ⟨uw, iw, sd, iv, wf⟩ := D
  dsimp only at h1 h2 h3 h4
  subst h1 h2 h3 h4
  exact ⟨wf, rfl⟩

/-- The same against any record of the batched scatter's dimension numbers. -/
theorem scatteredK_eq_host (D : ScatterDims S400000x96 S8x200000x1 S8x200000x96)
    (h1 : D.updateWindowDims = [2]) (h2 : D.insertedWindowDims = [0]) (h3 : D.scatterDimsToOperandDims = [0])
    (h4 : D.indexVectorDim = 2) (p : FVec Ideal S8x200000x96 .f32) (a5 : IVec S8x200000 32) :
    scatteredK p a5 = Host.scatterAdd (F := Ideal) D zeroAcc (wrapOut3 a5) p := by
  obtain ⟨wf, hD⟩ := dims_eq_dR D h1 h2 h3 h4
  unfold Host.scatterAdd
  rw [Ideal.hostScatterAdd_def, hD]
  exact scatteredK_eq wf p a5

/-- The accumulated array of real products is real. -/
theorem scatteredK_real (p : FVec Ideal S8x200000x96 .f32) (a5 : IVec S8x200000 32)
    (hp : ∀ j, ∃ a : ℝ, p j = (a : EReal)) (i : S400000x96.Idx) : ∃ a : ℝ, scatteredK p a5 i = (a : EReal) := by
  rw [scatteredK_def]
  have hx : ∀ i' : S400000x96.Idx, ∃ a : ℝ, zeroAcc i' = (a : EReal) :=
    fun i' => ⟨0, (zeroAcc_apply i').trans EReal.coe_zero.symm⟩
  have hu : ∀ j : S1600000x96.Idx, ∃ a : ℝ,
      shapeCast S1600000x96 p Facts₀.shapeCasts_S8x200000x96_S1600000x96 j = (a : EReal) := by
    intro j
    unfold shapeCast
    exact hp _
  exact Cert.LibScatterFlat.hostScatterAdd_real scatter_S400000x96_S1600000x1_S1600000x96_1_0_0_1 zeroAcc (wrapOutFlat a5)
    (shapeCast S1600000x96 p Facts₀.shapeCasts_S8x200000x96_S1600000x96) hx hu i

end Cert.KernelIdeal.KVal

end
-- ==== Proof.LibSumContr.lean ====
/-
  A sum over the contraction index of a matrix product that contracts ONE axis, re-indexed by that axis's coordinate.

  A `tpu.matmul` or a host `dot_general` at the ideal values, read at an output index `j`, is a sum over the
  product's contraction index `q` of `l (lhsIdx j q) * r (rhsIdx j q)`. When one axis is contracted, `q` is just a
  coordinate `k : Fin n`; if at coordinate `k` the two operand indices are `L k` and `R k`, the sum is
  `Σ_k l (L k) * r (R k)` (any dimension numbers, any shapes, values in any commutative additive monoid with a product).
-/
import Idealize.ShloMosaic.Lib.ValueIdx

namespace Cert.LibSumContr

open Idealize.ShloMosaic Idealize.ShloMosaic.ValueIdx

/-- The sum over a one-axis contraction index is the sum over that axis's coordinate of the products of the two
    operands at the indices the coordinate selects. -/
theorem sum_contr {M : Type*} [AddCommMonoid M] [Mul M] {sl sr so : Shape} (D : DotDims sl sr so) (n : ℕ)
    (hr : D.contr.rank = 1) (hs : D.contr.size ⟨0, by omega⟩ = n) (l : sl.Idx → M) (r : sr.Idx → M) (j : so.Idx)
    (L : Fin n → sl.Idx) (R : Fin n → sr.Idx)
    (hL : ∀ k, D.lhsIdx j ((contrEquiv1 D n hr hs).symm k) = L k)
    (hR : ∀ k, D.rhsIdx j ((contrEquiv1 D n hr hs).symm k) = R k) :
    ∑ q : D.contr.Idx, l (D.lhsIdx j q) * r (D.rhsIdx j q) = ∑ k : Fin n, l (L k) * r (R k) := by
  rw [← Equiv.sum_comp (contrEquiv1 D n hr hs).symm]
  exact Finset.sum_congr rfl fun k _ => by rw [hL k, hR k]

end Cert.LibSumContr
-- ==== Proof.RefPartial.lean ====
/-
  The reference's batched product read at an index: for each offset `k`, row `m` and output channel `d`
  it is the sum over the 128 input channels of the gathered row's entry times the offset's weight,
  `Σ_c g[k,m,c] · w[k,c,d]` — the one contracted axis re-indexed by its coordinate.
-/
import proofs.«110483_j76673756168768_1_alg».proof.Defs
import proofs.«110483_j76673756168768_1_alg».proof.Proof.Gen.ReferenceIdeal
import proofs.«110483_j76673756168768_1_alg».proof.Proof.LibSumContr
import Idealize.ShloMosaic.Lib.ValueIdx
import Idealize.ShloMosaic.PureOps.Ideal.Laws

noncomputable section

namespace Cert.ReferenceIdeal.RefBridge

open Idealize.ShloMosaic Idealize.ShloMosaic.ValueIdx
open Cert.ReferenceIdeal

/-- The batched product at `(k, m, d)` is `Σ_c g[k,m,c] · w[k,c,d]`. -/
theorem batched_product_apply (g : FVec Ideal S8x200000x128 .f32) (w : FVec Ideal S8x128x96 .f32)
    (k : Fin 8) (mm : Fin 200000) (d : Fin 96) :
    Host.dotGeneral (F := Ideal) dot_S8x200000x128_S8x128x96_S8x200000x96_2_1_1_2_0_0 none g w (ix3 k mm d)
      = ∑ cc : Fin 128, g (ix3 k mm cc) * w (ix3 k cc d) := by
  show FloatOps.dotGeneral dot_S8x200000x128_S8x128x96_S8x200000x96_2_1_1_2_0_0 none .single g w (ix3 k mm d) = _
  rw [Ideal.dotGeneral_apply]
  refine Cert.LibSumContr.sum_contr dot_S8x200000x128_S8x128x96_S8x200000x96_2_1_1_2_0_0 128 rfl rfl g w _
    (fun cc => ix3 k mm cc) (fun cc => ix3 k cc d) (fun cc => ?_) (fun cc => ?_)
  · funext a
    refine Fin.ext ?_
    match a with
    | ⟨0, _⟩ => rfl
    | ⟨1, _⟩ => rfl
    | ⟨2, _⟩ =>
      exact (DotDims.lhsIdx_val_of_single dot_S8x200000x128_S8x128x96_S8x200000x96_2_1_1_2_0_0 (cl := 2) rfl _ _).trans
        (contrEquiv1_symm_val _ 128 rfl rfl cc)
  · funext a
    refine Fin.ext ?_
    match a with
    | ⟨0, _⟩ => rfl
    | ⟨1, _⟩ =>
      exact (DotDims.rhsIdx_val_of_single dot_S8x200000x128_S8x128x96_S8x200000x96_2_1_1_2_0_0 (cr := 1) rfl _ _).trans
        (contrEquiv1_symm_val _ 128 rfl rfl cc)
    | ⟨2, _⟩ => rfl

end Cert.ReferenceIdeal.RefBridge

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.BridgeOut.lean ====
/-
  The accumulated array is the same on both sides, and its entries are real.

  Region 0 leaves, at `(k, m, d)`, the sum over the input channels of the gathered row's entry times the offset's
  weight — the reference's batched product, entry by entry; the gathered rows are the same function of the
  feature matrix and the wrapped row indices on both sides.  The kernel program flattens the products and the
  wrapped target indices before it accumulates them, the reference does not: the same rows land on the same
  targets, so the two accumulated arrays are equal.  Each entry is a finite sum of finite sums of products of
  entries of the feature matrix and of the weights, hence real where those are.
-/
import proofs.«110483_j76673756168768_1_alg».proof.Proof.KResult
import proofs.«110483_j76673756168768_1_alg».proof.Proof.KScatter
import proofs.«110483_j76673756168768_1_alg».proof.Proof.RefRun
import proofs.«110483_j76673756168768_1_alg».proof.Proof.RefPartial
import proofs.«110483_j76673756168768_1_alg».proof.Proof.LibRealEntries

set_option maxRecDepth 16384

noncomputable section

namespace Cert.Bridge

open Idealize.ShloMosaic Idealize.ShloMosaic.TcCoe Idealize.ShloMosaic.ValueIdx
open Idealize.SL.Sem
open Cert.KernelIdeal Cert.KernelIdeal.Gen Cert.KernelIdeal.KVal
open Cert.LibRealEntries

variable (m : (ℓ : Loc nD τ sig) → Buf (Elt Ideal) ℓ) (ρ : Dev nD → PrngReg)

/-- Region 0's output array is the reference's batched product of the gathered rows and the weights. -/
theorem products_eq (c : Dev nD) :
    (dat0 (V1 m ρ) c).arrAt 2 cfg0.N
      = Cert.ReferenceIdeal.RefRun.partialR
          (Cert.ReferenceIdeal.RefRun.gathered (m ((c : Thread nD τ).loc main_arg0)) (m ((c : Thread nD τ).loc main_arg4)))
          (m ((c : Thread nD τ).loc main_arg1)) := by
  funext j
  obtain ⟨k, mm, d, rfl⟩ : ∃ (k : Fin 8) (mm : Fin 200000) (d : Fin 96), j = ix3 k mm d := ⟨j 0, j 1, j 2, eq_ix3 j⟩
  rw [partial_apply (V1 m ρ) c k mm d, prodAt_def, V1_v6, V1_arg1]
  exact (Cert.ReferenceIdeal.RefBridge.batched_product_apply _ _ k mm d).symm

/-- The accumulated array of the kernel program's run is the reference's. -/
theorem out_eq (c : Dev nD) :
    outOf m ρ c
      = Cert.ReferenceIdeal.RefRun.outR
          (Cert.ReferenceIdeal.RefRun.partialR
            (Cert.ReferenceIdeal.RefRun.gathered (m ((c : Thread nD τ).loc main_arg0)) (m ((c : Thread nD τ).loc main_arg4)))
            (m ((c : Thread nD τ).loc main_arg1)))
          (m ((c : Thread nD τ).loc main_arg5)) := by
  unfold outOf
  rw [products_eq m ρ c]
  exact scatteredK_eq_host Cert.ReferenceIdeal.scatter_S400000x96_S8x200000x1_S8x200000x96_2_0_0_2 rfl rfl rfl rfl _ _

/-- Where the feature matrix and the weights have real entries, so has the accumulated array. -/
theorem out_real (c : Dev nD)
    (h0 : ∀ i, IsReal ((m ((c : Thread nD τ).loc main_arg0) : S200000x128.Idx → Ideal .f32) i))
    (h1 : ∀ i, IsReal ((m ((c : Thread nD τ).loc main_arg1) : S8x128x96.Idx → Ideal .f32) i)) (i : S400000x96.Idx) :
    ∃ a : ℝ, outOf m ρ c i = (a : EReal) := by
  unfold outOf
  refine scatteredK_real _ _ (fun j => ?_) i
  obtain ⟨k, mm, d, rfl⟩ : ∃ (k : Fin 8) (mm : Fin 200000) (d : Fin 96), j = ix3 k mm d := ⟨j 0, j 1, j 2, eq_ix3 j⟩
  rw [partial_apply (V1 m ρ) c k mm d, prodAt_def, V1_v6, V1_arg1]
  exact IsReal.sum _ _ (fun cc _ => IsReal.mul (h0 _) (h1 _))

end Cert.Bridge

end
-- ==== Proof.LibVariance.lean ====
import Idealize.ShloMosaic.PureOps.Ideal

/-! The population variance of finitely many real numbers, spelled two ways over the extended reals:
    the mean of the squared deviations from the mean, and the mean of the squares minus the square of the
    mean. On real data (every entry the coercion of a real) the two agree, division by the count `n ≠ 0`
    being `Ideal.div` by the real `n`. Also: the coercion `ℝ → EReal` commutes with finite sums. -/

noncomputable section

namespace Cert.LibVariance

open Idealize.ShloMosaic
open scoped BigOperators

/-- The coercion of a finite sum of reals is the sum of the coercions. -/
theorem coe_finset_sum {ι : Type*} (s : Finset ι) (a : ι → ℝ) :
    ((∑ r ∈ s, a r : ℝ) : EReal) = ∑ r ∈ s, (a r : EReal) := by
  classical
  induction s using Finset.induction_on with
  | empty => simp
  | insert i s hi ih => rw [Finset.sum_insert hi, Finset.sum_insert hi, EReal.coe_add, ih]

/-- In the reals: `(1/n) ∑ (aᵣ - μ)² = (1/n) ∑ aᵣ² - μ²` with `μ = (1/n) ∑ aᵣ`. -/
theorem variance_real {n : ℕ} (hn : n ≠ 0) (a : Fin n → ℝ) :
    (∑ r, (a r - (∑ r, a r) * (1 / (n : ℝ))) * (a r - (∑ r, a r) * (1 / (n : ℝ)))) * (1 / (n : ℝ))
      = (∑ r, a r * a r) * (1 / (n : ℝ)) - (∑ r, a r) * (1 / (n : ℝ)) * ((∑ r, a r) * (1 / (n : ℝ))) := by
  have hn' : (n : ℝ) ≠ 0 := by exact_mod_cast hn
  generalize hm : (∑ r, a r) * (1 / (n : ℝ)) = m
  have hS : (∑ r, a r) = m * n := by rw [← hm]; field_simp
  have h : ∑ r, (a r - m) * (a r - m) = (∑ r, a r * a r) - 2 * m * (∑ r, a r) + n * (m * m) := by
    have : ∀ r, (a r - m) * (a r - m) = a r * a r - 2 * m * a r + m * m := fun r => by ring
    simp only [this, Finset.sum_add_distrib, Finset.sum_sub_distrib, ← Finset.mul_sum, Finset.sum_const,
      Finset.card_univ, Fintype.card_fin, nsmul_eq_mul]
    ring
  rw [h, hS]; field_simp; ring

/-- The two spellings of the population variance agree on real data. -/
theorem variance_eq {n : ℕ} (hn : n ≠ 0) (x : Fin n → EReal) (hx : ∀ r, ∃ a : ℝ, x r = (a : EReal)) :
    Ideal.div (∑ r, (x r - Ideal.div (∑ r, x r) ((n : ℝ) : EReal)) * (x r - Ideal.div (∑ r, x r) ((n : ℝ) : EReal)))
        ((n : ℝ) : EReal)
      = Ideal.div (∑ r, x r * x r) ((n : ℝ) : EReal)
        - Ideal.div (∑ r, x r) ((n : ℝ) : EReal) * Ideal.div (∑ r, x r) ((n : ℝ) : EReal) := by
  choose a ha using hx
  obtain rfl : x = fun r => (a r : EReal) := funext ha
  have hn' : (n : ℝ) ≠ 0 := by exact_mod_cast hn
  simp only [Ideal.div_coe hn']
  simp only [← coe_finset_sum, ← EReal.coe_mul, ← EReal.coe_sub]
  exact congrArg _ (variance_real hn a)

/-- The same with every sum carrying a leading `0 +` (a reduction with initial value `0`). -/
theorem variance_eq_zero_add {n : ℕ} (hn : n ≠ 0) (x : Fin n → EReal) (hx : ∀ r, ∃ a : ℝ, x r = (a : EReal)) :
    Ideal.div (0 + ∑ r, (x r - Ideal.div (0 + ∑ r, x r) ((n : ℝ) : EReal))
          * (x r - Ideal.div (0 + ∑ r, x r) ((n : ℝ) : EReal))) ((n : ℝ) : EReal)
      = Ideal.div (0 + ∑ r, x r * x r) ((n : ℝ) : EReal)
        - Ideal.div (0 + ∑ r, x r) ((n : ℝ) : EReal) * Ideal.div (0 + ∑ r, x r) ((n : ℝ) : EReal) := by
  simp only [zero_add]; exact variance_eq hn x hx

end Cert.LibVariance

end
-- ==== Proof.BridgeMath.lean ====
/-
  The one law that joins the two normalisations.

  The kernel program takes a column's variance as the mean of the squares less the square of the mean, the
  reference as the mean of the squared deviations from the mean; the count is the constant 400000 on both sides,
  which is the number of rows.  On real entries the two variances are equal, so the two normalised entries
  `max (((x - mean) · rsqrt (var + ε)) · γ + β, 0)` are equal too, whatever γ, β and ε are.
-/
import proofs.«110483_j76673756168768_1_alg».proof.Proof.LibVariance
import proofs.«110483_j76673756168768_1_alg».proof.Proof.LibWords
import Idealize.ShloMosaic.PureOps.Ideal

noncomputable section

namespace Cert.Bridge

open Idealize.ShloMosaic

/-- The two spellings of a normalised entry of a column of 400000 real numbers agree. -/
theorem norm_eq (x : Fin 400000 → EReal) (hx : ∀ r, ∃ a : ℝ, x r = (a : EReal)) (γ β ε : EReal) (r : Fin 400000) :
    max (((x r - Ideal.div (∑ r', x r') (Ideal.ofBits .f32 0x48C35000#32))
            * Ideal.rsqrt ((Ideal.div (∑ r', x r' * x r') (Ideal.ofBits .f32 0x48C35000#32)
                - Ideal.div (∑ r', x r') (Ideal.ofBits .f32 0x48C35000#32)
                  * Ideal.div (∑ r', x r') (Ideal.ofBits .f32 0x48C35000#32)) + ε)) * γ + β)
        (Ideal.ofBits .f32 0x00000000#32)
      = max (((x r - Ideal.div (∑ r', x r') ((400000 : ℝ) : EReal))
            * Ideal.rsqrt (Ideal.div (∑ r', (x r' - Ideal.div (∑ r', x r') ((400000 : ℝ) : EReal))
                  * (x r' - Ideal.div (∑ r', x r') ((400000 : ℝ) : EReal))) ((400000 : ℝ) : EReal) + ε)) * γ + β) 0 := by
  have h := Cert.LibVariance.variance_eq (n := 400000) (by norm_num) x hx
  simp only [Nat.cast_ofNat] at h
  rw [Cert.LibWords.ofBits_400000, Cert.LibWords.ofBits_zero, h]

end Cert.Bridge

end
-- ==== Proof.RefFinal.lean ====
/-
  The reference's normalisation read at an index.

  Column e of the accumulated [400000, 96] array has mean μ_e = (Σ_r x(r, e)) / 400000 and variance
  v_e = (Σ_r (x(r, e) − μ_e)²) / 400000: the sums start from the zero word, which denotes 0; the divisor's word denotes
  400000; the variance's correction is the integer zero, so its divisor is 400000 − 0, which is positive, and the select
  on that comparison keeps the quotient. Entry (r, e) of the result is then
  max(((x(r, e) − μ_e) · rsqrt(v_e + ε)) · scale_e + shift_e, 0), the vectors of length 96 read at e through their
  layouts as one row repeated down the rows.
-/
import proofs.«110483_j76673756168768_1_alg».proof.Proof.RefRun
import proofs.«110483_j76673756168768_1_alg».proof.Proof.LibWords
import Idealize.ShloMosaic.Lib.IdealHost
import Idealize.ShloMosaic.Lib.ValueIdx
import Idealize.ShloMosaic.Lib.Pipeline.Value
import Idealize.ShloMosaic.PureOps.Ideal.Laws

noncomputable section

open scoped BigOperators

namespace Cert.ReferenceIdeal.RefBridge

open Idealize.ShloMosaic Idealize.ShloMosaic.ValueIdx
open Cert.ReferenceIdeal Cert.ReferenceIdeal.Gen

/-! ## Layout steps read at an index -/

/-- A [96] vector laid out as one row reads, at (u, e), its entry e. -/
theorem row_of_vec_apply (x : S96.Idx → Ideal .f32) (u : Fin 1) (e : Fin 96) :
    broadcastInDim S1x96 ![1] bcast_S96_S1x96_1 x (ix2 u e) = x (ix1 e) :=
  broadcastInDim_apply _ _ x (ix2 u e) (ix1 e) fun a => by
    match a with
    | ⟨0, _⟩ => rfl

/-- One row repeated down 400000 rows reads, at (r, e), the row's entry e. -/
theorem rows_of_row_apply (x : S1x96.Idx → Ideal .f32) (r : Fin 400000) (e : Fin 96) :
    broadcastInDim S400000x96 ![0, 1] bcast_S1x96_S400000x96_0_1 x (ix2 r e) = x (ix2 (0 : Fin 1) e) :=
  broadcastInDim_apply _ _ x (ix2 r e) (ix2 (0 : Fin 1) e) fun a => by
    match a with
    | ⟨0, _⟩ => rfl
    | ⟨1, _⟩ => rfl

/-- A [96] vector repeated down 400000 rows reads, at (r, e), its entry e. -/
theorem rows_of_vec_apply (x : S96.Idx → Ideal .f32) (r : Fin 400000) (e : Fin 96) :
    broadcastInDim S400000x96 ![0, 1] bcast_S1x96_S400000x96_0_1 (broadcastInDim S1x96 ![1] bcast_S96_S1x96_1 x) (ix2 r e)
      = x (ix1 e) := by
  rw [rows_of_row_apply, row_of_vec_apply]

/-! ## A column's sum -/

/-- The host's sum over the rows, from the zero word, read at column e: the sum of the column's 400000 entries. -/
theorem colSum_apply (x : FVec Ideal S400000x96 .f32) (e : Fin 96) :
    Host.reduceAdd (F := Ideal) x (constant (F := Ideal) S_ .f32 0x00000000#32) reducesTo_S400000x96_S96_d0 h_S_ (ix1 e)
      = ∑ r : Fin 400000, x (ix2 r e) := by
  have hR : S400000x96.Reduces [0] S96 := by decide
  rw [hostReduceAdd_apply, Ideal.hostReduceAdd_single reducesTo_S400000x96_S96_d0 hR, constant_apply,
    Cert.LibWords.ofBits_zero, zero_add]
  refine Finset.sum_congr rfl fun r _ => congrArg x ?_
  funext ax; apply Fin.ext
  match ax with
  | ⟨0, _⟩ => rfl
  | ⟨1, _⟩ => rfl

/-! ## The column statistics -/

/-- The mean of column e: the column's sum over the row count. -/
def refMean (out : FVec Ideal S400000x96 .f32) (e : Fin 96) : Ideal .f32 :=
  Ideal.div (∑ r : Fin 400000, out (ix2 r e)) ((400000 : ℝ) : EReal)

theorem refMean_def (out : FVec Ideal S400000x96 .f32) (e : Fin 96) :
    refMean out e = Ideal.div (∑ r : Fin 400000, out (ix2 r e)) ((400000 : ℝ) : EReal) := rfl

/-- The variance of column e: the sum of the squared distances to the mean over the row count. -/
def refVar (out : FVec Ideal S400000x96 .f32) (e : Fin 96) : Ideal .f32 :=
  Ideal.div (∑ r : Fin 400000, (out (ix2 r e) - refMean out e) * (out (ix2 r e) - refMean out e)) ((400000 : ℝ) : EReal)

theorem refVar_def (out : FVec Ideal S400000x96 .f32) (e : Fin 96) :
    refVar out e
      = Ideal.div (∑ r : Fin 400000, (out (ix2 r e) - refMean out e) * (out (ix2 r e) - refMean out e)) ((400000 : ℝ) : EReal) := rfl

theorem colMean_apply (out : FVec Ideal S400000x96 .f32) (e : Fin 96) : RefRun.colMean out (ix1 e) = refMean out e := by
  unfold RefRun.colMean
  rw [hostDivf_apply, colSum_apply, broadcastInDim_scalar_apply, constant_apply, Cert.LibWords.ofBits_400000]
  rfl

theorem centered_apply (out : FVec Ideal S400000x96 .f32) (r : Fin 400000) (e : Fin 96) :
    RefRun.centered out (ix2 r e) = out (ix2 r e) - refMean out e := by
  unfold RefRun.centered
  rw [subf_apply, rows_of_row_apply, hostDivf_apply, row_of_vec_apply, colSum_apply, broadcastInDim_scalar_apply,
    constant_apply, Cert.LibWords.ofBits_400000]
  rfl

/-- The variance's divisor is the row count: the correction subtracted is the integer zero. -/
theorem varDenom_apply (j : S_.Idx) : RefRun.varDenom j = ((400000 : ℝ) : EReal) - 0 := by
  unfold RefRun.varDenom
  rw [subf_apply, constant_apply, Cert.LibWords.ofBits_400000, Cert.LibWords.sitofp_apply_zero _ _ rfl]

theorem colVar_apply (out : FVec Ideal S400000x96 .f32) (e : Fin 96) : RefRun.colVar out (ix1 e) = refVar out e := by
  unfold RefRun.colVar
  rw [Cert.LibWords.select_apply_one]
  · rw [hostDivf_apply, colSum_apply, broadcastInDim_scalar_apply, varDenom_apply, sub_zero]
    have hs : (∑ r : Fin 400000, mulf (RefRun.centered out) (RefRun.centered out) (ix2 r e))
        = ∑ r : Fin 400000, (out (ix2 r e) - refMean out e) * (out (ix2 r e) - refMean out e) :=
      Finset.sum_congr rfl fun r _ => by
        show RefRun.centered out (ix2 r e) * RefRun.centered out (ix2 r e) = _
        rw [centered_apply]
    rw [hs, refVar_def]
  · rw [broadcastInDim_scalar_apply, cmpf_apply, varDenom_apply, constant_apply, Cert.LibWords.ofBits_zero]
    exact Cert.LibWords.cmp_ogt_400000

/-! ## The normalisation at an index -/

/-- Entry (r, e) of the normalised, scaled, shifted and clamped array. -/
theorem finalR_apply (out : FVec Ideal S400000x96 .f32) (a2 a3 : FVec Ideal S96 .f32) (r : Fin 400000) (e : Fin 96) :
    RefRun.finalR out a2 a3 (ix2 r e)
      = max ((((out (ix2 r e) - refMean out e) * Ideal.rsqrt (refVar out e + Ideal.ofBits .f32 0x3727C5AC#32)) * a2 (ix1 e))
          + a3 (ix1 e)) 0 := by
  unfold RefRun.finalR
  rw [maximumf_apply, addf_apply, mulf_apply, mulf_apply, subf_apply, rows_of_vec_apply, rows_of_vec_apply,
    rows_of_vec_apply, rows_of_vec_apply, broadcastInDim_scalar_apply, constant_apply, Cert.LibWords.ofBits_zero,
    colMean_apply]
  show max ((((out (ix2 r e) - refMean out e)
      * Ideal.rsqrt (RefRun.colVar out (ix1 e) + broadcastInDim S96 ![] bcast_S_S96 (constant (F := Ideal) S_ .f32 0x3727C5AC#32) (ix1 e)))
      * a2 (ix1 e)) + a3 (ix1 e)) 0 = _
  rw [colVar_apply, broadcastInDim_scalar_apply, constant_apply]

end Cert.ReferenceIdeal.RefBridge

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«110483_j76673756168768_1_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.KFinite.lean ====
/-
  The precondition read back: "every float input is finite" says, at the ideal values, that every entry of
  the feature matrix and of the weights is a real number (neither infinity).  The printed test is the
  conjunction of four `all(|x| < +∞)`; a conjunction of bits that is 1 has every bit 1, and each `all` that
  is 1 gives the comparison at every entry.
-/
import proofs.«110483_j76673756168768_1_alg».proof.Defs
import proofs.«110483_j76673756168768_1_alg».proof.Proof.Gen.Pre_finite_inputs
import proofs.«110483_j76673756168768_1_alg».proof.Proof.LibFinitePre
import Idealize.ShloMosaic.Lib.Affine

noncomputable section

namespace Cert.Bridge

open Idealize.ShloMosaic Idealize.ShloMosaic.ValueIdx Cert.LibRealEntries Cert.LibFinitePre
open Cert.Pre_finite_inputs

/-- Under the precondition the feature matrix and the weights have real entries. -/
theorem real_of_pre (a0 : FVec Ideal S200000x128 .f32) (a1 : FVec Ideal S8x128x96 .f32) (a2 a3 : FVec Ideal S96 .f32)
    (a4 a5 : IVec S8x200000 32)
    (h : Cert.Pre_finite_inputs.fn (F := Ideal) a0 a1 a2 a3 a4 a5 = fun _ => 1#1) :
    (∀ i, IsReal (a0 i)) ∧ (∀ i, IsReal (a1 i)) := by
  have h0 := congrFun h ix0
  dsimp only [fn, fn_part1] at h0
  obtain ⟨h123, -⟩ := IntOp.andi_eq_one.1 h0
  obtain ⟨h12, -⟩ := IntOp.andi_eq_one.1 h123
  obtain ⟨h1, h2⟩ := IntOp.andi_eq_one.1 h12
  exact ⟨fun i => all_real a0 _ _ _ h1 i, fun i => all_real a1 _ _ _ h2 i⟩

end Cert.Bridge

end
-- ==== Proof.Bridge.lean ====
/-
  The two programs' results are equal.

  Entry `(r, e)` of the kernel program's result is the normalised entry of the accumulated array with the
  variance taken as the mean of the squares less the square of the mean; the reference's is the normalised
  entry of the SAME accumulated array with the variance taken as the mean of the squared deviations.  Under the
  precondition the accumulated array has real entries, where the two variances agree.
-/
import proofs.«110483_j76673756168768_1_alg».proof.Proof.BridgeOut
import proofs.«110483_j76673756168768_1_alg».proof.Proof.BridgeMath
import proofs.«110483_j76673756168768_1_alg».proof.Proof.RefFinal
import proofs.«110483_j76673756168768_1_alg».proof.Proof.KFinite

set_option maxRecDepth 16384

noncomputable section

namespace Cert.Bridge

open Idealize.ShloMosaic Idealize.ShloMosaic.TcCoe Idealize.ShloMosaic.ValueIdx
open Idealize.SL.Sem
open Cert.KernelIdeal Cert.KernelIdeal.Gen Cert.KernelIdeal.KVal
open Cert.LibRealEntries

variable (m : (ℓ : Loc nD τ sig) → Buf (Elt Ideal) ℓ) (ρ : Dev nD → PrngReg)

/-- Under the precondition, the reference's result of the kernel program's arguments is what the kernel
    program's run leaves in its result buffer. -/
theorem result_eq (hpre : Cert.Pre_KernelIdeal m) (c : Dev nD) :
    Cert.ReferenceIdeal.RefRun.result (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
      = W6 m ρ c (Proc.devRef .tc main_v31) := by
  obtain ⟨h0, h1⟩ := real_of_pre _ _ _ _ _ _ (hpre c)
  funext j
  obtain ⟨r, e, rfl⟩ : ∃ (r : Fin 400000) (e : Fin 96), j = ix2 r e := ⟨j 0, j 1, eq_ix2 j⟩
  rw [result_apply m ρ c r e]
  unfold Cert.ReferenceIdeal.RefRun.result
  rw [← out_eq m ρ c, Cert.ReferenceIdeal.RefBridge.finalR_apply]
  unfold kerAt kerVar kerMean Cert.ReferenceIdeal.RefBridge.refVar Cert.ReferenceIdeal.RefBridge.refMean
  exact (norm_eq (fun r' => outOf m ρ c (ix2 r' e)) (fun r' => out_real m ρ c h0 h1 (ix2 r' e)) _ _ _ r).symm

end Cert.Bridge

end
-- ==== Proof.lean ====
/-
  Sparse transposed convolution followed by batch normalisation and a rectifier: the kernel program against its
  jnp reference, over the extended reals.

  Both programs gather rows of the feature matrix (a negative index wraps), multiply each gathered row by its
  offset's weight matrix, accumulate the product rows at their target rows (a negative index wraps, a target
  outside the array is dropped), and normalise each column of the accumulated array by its mean and variance
  before the scale, the shift and the rectifier.  The kernel program computes the products, the column sums and
  sums of squares, and the normalisation in three kernel regions, flattens the products before accumulating
  them, and takes the variance as the mean of the squares less the square of the mean; the reference takes it as
  the mean of the squared deviations.  At the ideal values the products are the same sums, the accumulated arrays
  are equal, and the two variances agree because, under the precondition, every accumulated entry is real.

  The frames of the two kernel programs are the generated ones; the reference's is its run with the result
  dropped; the ideal pass rewrote nothing, so the idealization claim is trivial.
-/
import proofs.«110483_j76673756168768_1_alg».proof.Defs
import proofs.«110483_j76673756168768_1_alg».proof.Proof.Gen.Kernel
import proofs.«110483_j76673756168768_1_alg».proof.Proof.Gen.Kernel.Skeleton
import proofs.«110483_j76673756168768_1_alg».proof.Proof.Gen.Kernel.Launch
import proofs.«110483_j76673756168768_1_alg».proof.Proof.Gen.Kernel.Points
import proofs.«110483_j76673756168768_1_alg».proof.Proof.Gen.Kernel.Frame
import proofs.«110483_j76673756168768_1_alg».proof.Proof.Gen.KernelIdeal
import proofs.«110483_j76673756168768_1_alg».proof.Proof.Gen.KernelIdeal.Skeleton
import proofs.«110483_j76673756168768_1_alg».proof.Proof.Gen.KernelIdeal.Launch
import proofs.«110483_j76673756168768_1_alg».proof.Proof.Gen.KernelIdeal.Points
import proofs.«110483_j76673756168768_1_alg».proof.Proof.Gen.KernelIdeal.Frame
import proofs.«110483_j76673756168768_1_alg».proof.Proof.Gen.ReferenceIdeal
import proofs.«110483_j76673756168768_1_alg».proof.Proof.Gen.Pre_finite_inputs
import proofs.«110483_j76673756168768_1_alg».proof.Proof.KRun
import proofs.«110483_j76673756168768_1_alg».proof.Proof.RefRun
import proofs.«110483_j76673756168768_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both runs end; the kernel program's result buffer holds the last boundary's contents, and the reference's
    result of agreeing arguments is that same array. -/
theorem algebraic : Cert.algebraic_KernelIdeal_ReferenceIdeal := by
  intro m ρ m' ρ' hpre hagree
  refine ⟨fun c => Cert.KernelIdeal.Gen.W6 m ρ c (Proc.devRef .tc Cert.KernelIdeal.main_v31),
    Cert.KernelIdeal.KVal.run_W6 m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2.1, (hagree c).2.2.2.2.2]
  exact Cert.Bridge.result_eq m ρ hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
